-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v40)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v40) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v54) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x128 : Shape := ⟨2, ![50000, 128]⟩
abbrev S2x800000 : Shape := ⟨2, ![2, 800000]⟩
abbrev S128x128 : Shape := ⟨2, ![128, 128]⟩
abbrev S128 : Shape := ⟨1, ![128]⟩
abbrev S_ : Shape := ⟨0, ![]⟩

class Facts : Prop where
  bcast_S_S50000x128 : S_.BroadcastsInDim S50000x128 (![] : Fin 0 → Fin S50000x128.rank)
  reducesTo_S50000x128_S_d0_1 : S50000x128.ReducesTo [0, 1] S_
  h_S_ : 0 < S_.numel
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_

variable [Facts]

def fn_part1 {F : FTy → Type} [FloatOps F] (main_arg5 : FVec F S128 .f32) (main_v13 : IVec S_ 1) (main_v16 : IVec S128x128 1) : IVec S_ 1 :=
  let main_c_5 : IVec S_ 1 := constantI S_ 1 1#1
  let main_v17 : IVec S_ 1 := (fun x v => Host.reduce IntOp.andi x v reducesTo_S128x128_S_d0_1 h_S_) main_v16 main_c_5
  let main_v18 : IVec S_ 1 := andi main_v13 main_v17
  let main_v19 : FVec F S128 .f32 := Host.absf main_arg5
  let main_cst_6 : FVec F S_ .f32 := constant S_ .f32 0x7F800000#32
  let main_v20 : FVec F S128 .f32 := broadcastInDim S128 ![] bcast_S_S128 main_cst_6
  let main_v21 : IVec S128 1 := cmpf .olt main_v19 main_v20
  let main_c_7 : IVec S_ 1 := constantI S_ 1 1#1
  let main_v22 : IVec S_ 1 := (fun x v => Host.reduce IntOp.andi x v reducesTo_S128_S_d0 h_S_) main_v21 main_c_7
  let main_v23 : IVec S_ 1 := andi main_v18 main_v22
  main_v23

def fn {F : FTy → Type} [FloatOps F] (main_arg0 : FVec F S50000x128 .f32) (main_arg1 : IVec S2x800000 32) (main_arg2 : FVec F S128x128 .f32) (main_arg3 : FVec F S128 .f32) (main_arg4 : FVec F S128x128 .f32) (main_arg5 : FVec F S128 .f32) : IVec S_ 1 :=
  let main_v0 : FVec F S50000x128 .f32 := Host.absf main_arg0
  let main_cst : FVec F S_ .f32 := constant S_ .f32 0x7F800000#32
  let main_v1 : FVec F S50000x128 .f32 := broadcastInDim S50000x128 ![] bcast_S_S50000x128 main_cst
  let main_v2 : IVec S50000x128 1 := cmpf .olt main_v0 main_v1
  let main_c : IVec S_ 1 := constantI S_ 1 1#1
  let main_v3 : IVec S_ 1 := (fun x v => Host.reduce IntOp.andi x v reducesTo_S50000x128_S_d0_1 h_S_) main_v2 main_c
  let main_v4 : FVec F S128x128 .f32 := Host.absf main_arg2
  let main_cst_0 : FVec F S_ .f32 := constant S_ .f32 0x7F800000#32
  let main_v5 : FVec F S128x128 .f32 := broadcastInDim S128x128 ![] bcast_S_S128x128 main_cst_0
  let main_v6 : IVec S128x128 1 := cmpf .olt main_v4 main_v5
  let main_c_1 : IVec S_ 1 := constantI S_ 1 1#1
  let main_v7 : IVec S_ 1 := (fun x v => Host.reduce IntOp.andi x v reducesTo_S128x128_S_d0_1 h_S_) main_v6 main_c_1
  let main_v8 : IVec S_ 1 := andi main_v3 main_v7
  let main_v9 : FVec F S128 .f32 := Host.absf main_arg3
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S128x128 .f32 := Host.absf main_arg4
  let main_cst_4 : FVec F S_ .f32 := constant S_ .f32 0x7F800000#32
  let main_v15 : FVec F S128x128 .f32 := broadcastInDim S128x128 ![] bcast_S_S128x128 main_cst_4
  let main_v16 : IVec S128x128 1 := cmpf .olt main_v14 main_v15
  fn_part1 (F := F) main_arg5 main_v13 main_v16
-- ==== Kernel.lean ====
abbrev S50000x128 : Shape := ⟨2, ![50000, 128]⟩
abbrev S2x800000 : Shape := ⟨2, ![2, 800000]⟩
abbrev S128x128 : Shape := ⟨2, ![128, 128]⟩
abbrev S128 : Shape := ⟨1, ![128]⟩
abbrev S1x800000 : Shape := ⟨2, ![1, 800000]⟩
abbrev S800000 : Shape := ⟨1, ![800000]⟩
abbrev S_ : Shape := ⟨0, ![]⟩
abbrev S50000 : Shape := ⟨1, ![50000]⟩
abbrev S800000x1 : Shape := ⟨2, ![800000, 1]⟩
abbrev S50000x1 : Shape := ⟨2, ![50000, 1]⟩
abbrev S800000x128 : Shape := ⟨2, ![800000, 128]⟩
abbrev S5000x128 : Shape := ⟨2, ![5000, 128]⟩
abbrev S5000x1 : Shape := ⟨2, ![5000, 1]⟩
abbrev S1x128 : Shape := ⟨2, ![1, 128]⟩

abbrev nBuf : Space → Nat
  | .hbm => 57
  | .vmem => 20
  | .smem => 0
  | _ => 0

abbrev bufTy : (tb : Table) → Fin (tcTables nBuf tb) → BufTy
  | .hbm, ⟨0, _⟩ => ⟨S50000x128, .f32⟩
  | .hbm, ⟨1, _⟩ => ⟨S2x800000, .i32⟩
  | .hbm, ⟨2, _⟩ => ⟨S128x128, .f32⟩
  | .hbm, ⟨3, _⟩ => ⟨S128, .f32⟩
  | .hbm, ⟨4, _⟩ => ⟨S128x128, .f32⟩
  | .hbm, ⟨5, _⟩ => ⟨S128, .f32⟩
  | .hbm, ⟨6, _⟩ => ⟨S1x800000, .i32⟩
  | .hbm, ⟨7, _⟩ => ⟨S800000, .i32⟩
  | .hbm, ⟨8, _⟩ => ⟨S1x800000, .i32⟩
  | .hbm, ⟨9, _⟩ => ⟨S800000, .i32⟩
  | .hbm, ⟨10, _⟩ => ⟨S_, .f32⟩
  | .hbm, ⟨11, _⟩ => ⟨S800000, .f32⟩
  | .hbm, ⟨12, _⟩ => ⟨S_, .f32⟩
  | .hbm, ⟨13, _⟩ => ⟨S50000, .f32⟩
  | .hbm, ⟨14, _⟩ => ⟨S800000x1, .i32⟩
  | .hbm, ⟨15, _⟩ => ⟨S50000, .f32⟩
  | .hbm, ⟨16, _⟩ => ⟨S_, .f32⟩
  | .hbm, ⟨17, _⟩ => ⟨S50000, .f32⟩
  | .hbm, ⟨18, _⟩ => ⟨S50000, .f32⟩
  | .hbm, ⟨19, _⟩ => ⟨S_, .f32⟩
  | .hbm, ⟨20, _⟩ => ⟨S50000, .f32⟩
  | .hbm, ⟨21, _⟩ => ⟨S50000, .f32⟩
  | .hbm, ⟨22, _⟩ => ⟨S50000x1, .f32⟩
  | .hbm, ⟨23, _⟩ => ⟨S50000x128, .bf16⟩
  | .hbm, ⟨24, _⟩ => ⟨S_, .i32⟩
  | .hbm, ⟨25, _⟩ => ⟨S800000, .i32⟩
  | .hbm, ⟨26, _⟩ => ⟨S800000, .i1⟩
  | .hbm, ⟨27, _⟩ => ⟨S_, .i32⟩
  | .hbm, ⟨28, _⟩ => ⟨S800000, .i32⟩
  | .hbm, ⟨29, _⟩ => ⟨S800000, .i32⟩
  | .hbm, ⟨30, _⟩ => ⟨S800000, .i32⟩
  | .hbm, ⟨31, _⟩ => ⟨S800000x1, .i32⟩
  | .hbm, ⟨32, _⟩ => ⟨S800000x128, .bf16⟩
  | .hbm, ⟨33, _⟩ => ⟨S800000x128, .f32⟩
  | .hbm, ⟨34, _⟩ => ⟨S_, .f32⟩
  | .hbm, ⟨35, _⟩ => ⟨S50000x128, .f32⟩
  | .hbm, ⟨36, _⟩ => ⟨S800000x1, .i32⟩
  | .hbm, ⟨37, _⟩ => ⟨S50000x128, .f32⟩
  | .hbm, ⟨38, _⟩ => ⟨S128x128, .f32⟩
  | .hbm, ⟨39, _⟩ => ⟨S50000x128, .f32⟩
  | .hbm, ⟨40, _⟩ => ⟨S50000x128, .bf16⟩
  | .hbm, ⟨41, _⟩ => ⟨S_, .i32⟩
  | .hbm, ⟨42, _⟩ => ⟨S800000, .i32⟩
  | .hbm, ⟨43, _⟩ => ⟨S800000, .i1⟩
  | .hbm, ⟨44, _⟩ => ⟨S_, .i32⟩
  | .hbm, ⟨45, _⟩ => ⟨S800000, .i32⟩
  | .hbm, ⟨46, _⟩ => ⟨S800000, .i32⟩
  | .hbm, ⟨47, _⟩ => ⟨S800000, .i32⟩
  | .hbm, ⟨48, _⟩ => ⟨S800000x1, .i32⟩
  | .hbm, ⟨49, _⟩ => ⟨S800000x128, .bf16⟩
  | .hbm, ⟨50, _⟩ => ⟨S800000x128, .f32⟩
  | .hbm, ⟨51, _⟩ => ⟨S_, .f32⟩
  | .hbm, ⟨52, _⟩ => ⟨S50000x128, .f32⟩
  | .hbm, ⟨53, _⟩ => ⟨S800000x1, .i32⟩
  | .hbm, ⟨54, _⟩ => ⟨S50000x128, .f32⟩
  | .hbm, ⟨55, _⟩ => ⟨S128x128, .f32⟩
  | .hbm, ⟨56, _⟩ => ⟨S50000x128, .f32⟩
  | .local _ .vmem, ⟨0, _⟩ => ⟨S5000x128, .f32⟩
  | .local _ .vmem, ⟨1, _⟩ => ⟨S5000x128, .f32⟩
  | .local _ .vmem, ⟨2, _⟩ => ⟨S5000x128, .f32⟩
  | .local _ .vmem, ⟨3, _⟩ => ⟨S5000x128, .f32⟩
  | .local _ .vmem, ⟨4, _⟩ => ⟨S5000x1, .f32⟩
  | .local _ .vmem, ⟨5, _⟩ => ⟨S5000x1, .f32⟩
  | .local _ .vmem, ⟨6, _⟩ => ⟨S128x128, .f32⟩
  | .local _ .vmem, ⟨7, _⟩ => ⟨S128, .f32⟩
  | .local _ .vmem, ⟨8, _⟩ => ⟨S5000x128, .f32⟩
  | .local _ .vmem, ⟨9, _⟩ => ⟨S5000x128, .f32⟩
  | .local _ .vmem, ⟨10, _⟩ => ⟨S5000x128, .f32⟩
  | .local _ .vmem, ⟨11, _⟩ => ⟨S5000x128, .f32⟩
  | .local _ .vmem, ⟨12, _⟩ => ⟨S5000x128, .f32⟩
  | .local _ .vmem, ⟨13, _⟩ => ⟨S5000x128, .f32⟩
  | .local _ .vmem, ⟨14, _⟩ => ⟨S5000x1, .f32⟩
  | .local _ .vmem, ⟨15, _⟩ => ⟨S5000x1, .f32⟩
  | .local _ .vmem, ⟨16, _⟩ => ⟨S128x128, .f32⟩
  | .local _ .vmem, ⟨17, _⟩ => ⟨S128, .f32⟩
  | .local _ .vmem, ⟨18, _⟩ => ⟨S5000x128, .f32⟩
  | .local _ .vmem, ⟨19, _⟩ => ⟨S5000x128, .f32⟩
  | _, _ => ⟨S50000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_cst : Ref sig .tc := ⟨.hbm, 10, rfl⟩
abbrev main_v4 : Ref sig .tc := ⟨.hbm, 11, rfl⟩
abbrev main_cst_0 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_cst_1 : Ref sig .tc := ⟨.hbm, 16, rfl⟩
abbrev main_v8 : Ref sig .tc := ⟨.hbm, 17, rfl⟩
abbrev main_v9 : Ref sig .tc := ⟨.hbm, 18, rfl⟩
abbrev main_cst_2 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_c : Ref sig .tc := ⟨.hbm, 24, rfl⟩
abbrev main_v14 : Ref sig .tc := ⟨.hbm, 25, rfl⟩
abbrev main_v15 : Ref sig .tc := ⟨.hbm, 26, rfl⟩
abbrev main_c_3 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_4 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_c_5 : Ref sig .tc := ⟨.hbm, 41, rfl⟩
abbrev main_v28 : Ref sig .tc := ⟨.hbm, 42, rfl⟩
abbrev main_v29 : Ref sig .tc := ⟨.hbm, 43, rfl⟩
abbrev main_c_6 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_cst_7 : Ref sig .tc := ⟨.hbm, 51, rfl⟩
abbrev main_v36 : Ref sig .tc := ⟨.hbm, 52, rfl⟩
abbrev main_v37 : Ref sig .tc := ⟨.hbm, 53, rfl⟩
abbrev main_v38 : Ref sig .tc := ⟨.hbm, 54, rfl⟩
abbrev main_v39 : Ref sig .tc := ⟨.hbm, 55, rfl⟩
abbrev main_v40 : Ref sig .tc := ⟨.hbm, 56, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc1_stg0_0 : Ref sig .tc := ⟨.vmem, 10, rfl⟩
abbrev cc1_stg0_1 : Ref sig .tc := ⟨.vmem, 11, rfl⟩
abbrev cc1_stg1_0 : Ref sig .tc := ⟨.vmem, 12, rfl⟩
abbrev cc1_stg1_1 : Ref sig .tc := ⟨.vmem, 13, rfl⟩
abbrev cc1_stg2_0 : Ref sig .tc := ⟨.vmem, 14, rfl⟩
abbrev cc1_stg2_1 : Ref sig .tc := ⟨.vmem, 15, rfl⟩
abbrev cc1_stg3_0 : Ref sig .tc := ⟨.vmem, 16, rfl⟩
abbrev cc1_stg4_0 : Ref sig .tc := ⟨.vmem, 17, rfl⟩
abbrev cc1_stg5_0 : Ref sig .tc := ⟨.vmem, 18, rfl⟩
abbrev cc1_stg5_1 : Ref sig .tc := ⟨.vmem, 19, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem5_1 : DmaSem sig := 9
abbrev cc1_sem0_0 : DmaSem sig := 10
abbrev cc1_sem0_1 : DmaSem sig := 11
abbrev cc1_sem1_0 : DmaSem sig := 12
abbrev cc1_sem1_1 : DmaSem sig := 13
abbrev cc1_sem2_0 : DmaSem sig := 14
abbrev cc1_sem2_1 : DmaSem sig := 15
abbrev cc1_sem3_0 : DmaSem sig := 16
abbrev cc1_sem4_0 : DmaSem sig := 17
abbrev cc1_sem5_0 : DmaSem sig := 18
abbrev cc1_sem5_1 : DmaSem sig := 19

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S5000x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S5000x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S128x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S5000x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S5000x128 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S5000x1 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 1 → Memref sig .tc .vmem S128x128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S128 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 2 → Memref sig .tc .vmem S5000x128 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  bcast_S_S800000 : S_.BroadcastsInDim S800000 (![] : Fin 0 → Fin S800000.rank)
  bcast_S_S50000 : S_.BroadcastsInDim S50000 (![] : Fin 0 → Fin S50000.rank)
  bcast_S800000_S800000x1_0 : S800000.BroadcastsInDim S800000x1 (![0] : Fin 1 → Fin S800000x1.rank)
  shapeCasts_S50000_S50000x1 : S50000.ShapeCasts S50000x1
  bitsLt_bf16_f32 : FTy.bits .bf16 < FTy.bits .f32
  bcast_S_S50000x128 : S_.BroadcastsInDim S50000x128 (![] : Fin 0 → Fin S50000x128.rank)
  transposes_S128x128_S128x128_1_0 : S128x128.Transposes [1, 0] S128x128
  inb_S5000x128_S5000x128_0_0 : ∀ a, (![0, 0] : Fin 2 → Nat) a + S5000x128.size a ≤ S5000x128.size a
  h_S5000x128 : 0 < S5000x128.numel
  shapeCasts_S5000x128_S5000x128 : S5000x128.ShapeCasts S5000x128
  inb_S5000x1_S5000x1_0_0 : ∀ a, (![0, 0] : Fin 2 → Nat) a + S5000x1.size a ≤ S5000x1.size a
  h_S5000x1 : 0 < S5000x1.numel
  shapeCasts_S5000x1_S5000x1 : S5000x1.ShapeCasts S5000x1
  broadcasts_S5000x1_S5000x128 : S5000x1.Broadcasts S5000x128
  inb_S128x128_S128x128_0_0 : ∀ a, (![0, 0] : Fin 2 → Nat) a + S128x128.size a ≤ S128x128.size a
  h_S128x128 : 0 < S128x128.numel
  shapeCasts_S128x128_S128x128 : S128x128.ShapeCasts S128x128
  inb_S128_S128_0 : ∀ a, (![0] : Fin 1 → Nat) a + S128.size a ≤ S128.size a
  h_S128 : 0 < S128.numel
  shapeCasts_S128_S1x128 : S128.ShapeCasts S1x128
  broadcasts_S1x128_S5000x128 : S1x128.Broadcasts S5000x128
  scatter_S50000_S800000x1_S800000_n_0_0_1_wf : ScatterDims.WF S50000 S800000x1 S800000 [] [0] [0] 1
  gather_S50000x128_S800000x1_S800000x128_1_0_n_n_0_1_1128_wf : GatherDims.WF S50000x128 S800000x1 S800000x128 [1] [0] [] [0] [] 1 ![1, 128]
  scatter_S50000x128_S800000x1_S800000x128_1_0_0_1_wf : ScatterDims.WF S50000x128 S800000x1 S800000x128 [1] [0] [0] 1
  dot_S5000x128_S128x128_S5000x128_1_0_0_1_n_n_wf : DotDims.WF S5000x128 S128x128 S5000x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S50000x128.size a
  hwx0_0 : ∀ i : grid0.Coords, EltTy.bits .f32 = 32 ∨ (Rect.block (s := S50000x128) S5000x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S5000x128.size a ≤ S50000x128.size a
  hwx0_1 : ∀ i : grid0.Coords, EltTy.bits .f32 = 32 ∨ (Rect.block (s := S50000x128) S5000x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S5000x1.size a ≤ S50000x1.size a
  hwx0_2 : ∀ i : grid0.Coords, EltTy.bits .f32 = 32 ∨ (Rect.block (s := S50000x1) S5000x1.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S128x128.size a ≤ S128x128.size a
  hwx0_3 : ∀ i : grid0.Coords, EltTy.bits .f32 = 32 ∨ (Rect.block (s := S128x128) S128x128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S128.size a ≤ S128.size a
  hwx0_4 : ∀ i : grid0.Coords, EltTy.bits .f32 = 32 ∨ (Rect.block (s := S128) S128.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S5000x128.size a ≤ S50000x128.size a
  hwx0_5 : ∀ i : grid0.Coords, EltTy.bits .f32 = 32 ∨ (Rect.block (s := S50000x128) S5000x128.size (cc0_transform_5 i) (hinb0_5 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x128.size a ≤ S50000x128.size a
  hwx1_0 : ∀ i : grid1.Coords, EltTy.bits .f32 = 32 ∨ (Rect.block (s := S50000x128) S5000x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S5000x128.size a ≤ S50000x128.size a
  hwx1_1 : ∀ i : grid1.Coords, EltTy.bits .f32 = 32 ∨ (Rect.block (s := S50000x128) S5000x128.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S5000x1.size a ≤ S50000x1.size a
  hwx1_2 : ∀ i : grid1.Coords, EltTy.bits .f32 = 32 ∨ (Rect.block (s := S50000x1) S5000x1.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S128x128.size a ≤ S128x128.size a
  hwx1_3 : ∀ i : grid1.Coords, EltTy.bits .f32 = 32 ∨ (Rect.block (s := S128x128) S128x128.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S128.size a ≤ S128.size a
  hwx1_4 : ∀ i : grid1.Coords, EltTy.bits .f32 = 32 ∨ (Rect.block (s := S128) S128.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S5000x128.size a ≤ S50000x128.size a
  hwx1_5 : ∀ i : grid1.Coords, EltTy.bits .f32 = 32 ∨ (Rect.block (s := S50000x128) S5000x128.size (cc1_transform_5 i) (hinb1_5 i)).WholeWords (EltTy.packing .f32)

variable [Facts₀]

def scatter_S50000_S800000x1_S800000_n_0_0_1 : ScatterDims S50000 S800000x1 S800000 where
  updateWindowDims := []
  insertedWindowDims := [0]
  scatterDimsToOperandDims := [0]
  indexVectorDim := 1
  wf := scatter_S50000_S800000x1_S800000_n_0_0_1_wf
def gather_S50000x128_S800000x1_S800000x128_1_0_n_n_0_1_1128 : GatherDims S50000x128 S800000x1 S800000x128 where
  offsetDims := [1]
  collapsedSliceDims := [0]
  operandBatchingDims := []
  startIndicesBatchingDims := []
  startIndexMap := [0]
  indexVectorDim := 1
  sliceSizes := ![1, 128]
  wf := gather_S50000x128_S800000x1_S800000x128_1_0_n_n_0_1_1128_wf
def scatter_S50000x128_S800000x1_S800000x128_1_0_0_1 : ScatterDims S50000x128 S800000x1 S800000x128 where
  updateWindowDims := [1]
  insertedWindowDims := [0]
  scatterDimsToOperandDims := [0]
  indexVectorDim := 1
  wf := scatter_S50000x128_S800000x1_S800000x128_1_0_0_1_wf
def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf

abbrev win0_0 : Pipeline.Window sig grid0 :=
  Pipeline.Window.ofSpec (Memref.whole main_v24) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg0) S5000x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v12) S5000x1.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v25) S128x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg3) S128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v26) S5000x128.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev win1_0 : Pipeline.Window sig grid1 :=
  Pipeline.Window.ofSpec (Memref.whole main_v38) S5000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v26) S5000x128.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v12) S5000x1.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v39) S128x128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_arg5) S128.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v40) S5000x128.size cc1_transform_5 reads1_5 true false 2 stage1_5 sem1_5
    hrank1 hreads1_5 hinb1_5 nbuf1_5 (Memref.isWhole_whole _) hwx1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

class Facts : Prop extends Facts₀ where

variable [Facts]
-- ==== ReferenceIdeal.lean ====
abbrev S50000x128 : Shape := ⟨2, ![50000, 128]⟩
abbrev S2x800000 : Shape := ⟨2, ![2, 800000]⟩
abbrev S128x128 : Shape := ⟨2, ![128, 128]⟩
abbrev S128 : Shape := ⟨1, ![128]⟩
abbrev S1x800000 : Shape := ⟨2, ![1, 800000]⟩
abbrev S800000 : Shape := ⟨1, ![800000]⟩
abbrev S_ : Shape := ⟨0, ![]⟩
abbrev S800000x1 : Shape := ⟨2, ![800000, 1]⟩
abbrev S800000x128 : Shape := ⟨2, ![800000, 128]⟩
abbrev S50000 : Shape := ⟨1, ![50000]⟩
abbrev S50000x1 : Shape := ⟨2, ![50000, 1]⟩
abbrev S1x128 : Shape := ⟨2, ![1, 128]⟩

abbrev nBuf : Space → Nat
  | .hbm => 75
  | .vmem => 0
  | .smem => 0
  | _ => 0

abbrev bufTy : (tb : Table) → Fin (tcTables nBuf tb) → BufTy
  | .hbm, ⟨0, _⟩ => ⟨S50000x128, .f32⟩
  | .hbm, ⟨1, _⟩ => ⟨S2x800000, .i32⟩
  | .hbm, ⟨2, _⟩ => ⟨S128x128, .f32⟩
  | .hbm, ⟨3, _⟩ => ⟨S128, .f32⟩
  | .hbm, ⟨4, _⟩ => ⟨S128x128, .f32⟩
  | .hbm, ⟨5, _⟩ => ⟨S128, .f32⟩
  | .hbm, ⟨6, _⟩ => ⟨S1x800000, .i32⟩
  | .hbm, ⟨7, _⟩ => ⟨S800000, .i32⟩
  | .hbm, ⟨8, _⟩ => ⟨S1x800000, .i32⟩
  | .hbm, ⟨9, _⟩ => ⟨S800000, .i32⟩
  | .hbm, ⟨10, _⟩ => ⟨S_, .i32⟩
  | .hbm, ⟨11, _⟩ => ⟨S800000, .i32⟩
  | .hbm, ⟨12, _⟩ => ⟨S800000, .i1⟩
  | .hbm, ⟨13, _⟩ => ⟨S_, .i32⟩
  | .hbm, ⟨14, _⟩ => ⟨S800000, .i32⟩
  | .hbm, ⟨15, _⟩ => ⟨S800000, .i32⟩
  | .hbm, ⟨16, _⟩ => ⟨S800000, .i32⟩
  | .hbm, ⟨17, _⟩ => ⟨S800000x1, .i32⟩
  | .hbm, ⟨18, _⟩ => ⟨S800000x128, .f32⟩
  | .hbm, ⟨19, _⟩ => ⟨S_, .f32⟩
  | .hbm, ⟨20, _⟩ => ⟨S50000x128, .f32⟩
  | .hbm, ⟨21, _⟩ => ⟨S800000x1, .i32⟩
  | .hbm, ⟨22, _⟩ => ⟨S50000x128, .f32⟩
  | .hbm, ⟨23, _⟩ => ⟨S_, .f32⟩
  | .hbm, ⟨24, _⟩ => ⟨S800000, .f32⟩
  | .hbm, ⟨25, _⟩ => ⟨S_, .f32⟩
  | .hbm, ⟨26, _⟩ => ⟨S50000, .f32⟩
  | .hbm, ⟨27, _⟩ => ⟨S800000x1, .i32⟩
  | .hbm, ⟨28, _⟩ => ⟨S50000, .f32⟩
  | .hbm, ⟨29, _⟩ => ⟨S50000x128, .f32⟩
  | .hbm, ⟨30, _⟩ => ⟨S50000x1, .f32⟩
  | .hbm, ⟨31, _⟩ => ⟨S_, .f32⟩
  | .hbm, ⟨32, _⟩ => ⟨S50000x1, .f32⟩
  | .hbm, ⟨33, _⟩ => ⟨S50000x1, .f32⟩
  | .hbm, ⟨34, _⟩ => ⟨S50000x128, .f32⟩
  | .hbm, ⟨35, _⟩ => ⟨S50000x128, .f32⟩
  | .hbm, ⟨36, _⟩ => ⟨S128x128, .f32⟩
  | .hbm, ⟨37, _⟩ => ⟨S50000x128, .f32⟩
  | .hbm, ⟨38, _⟩ => ⟨S1x128, .f32⟩
  | .hbm, ⟨39, _⟩ => ⟨S50000x128, .f32⟩
  | .hbm, ⟨40, _⟩ => ⟨S50000x128, .f32⟩
  | .hbm, ⟨41, _⟩ => ⟨S_, .f32⟩
  | .hbm, ⟨42, _⟩ => ⟨S50000x128, .f32⟩
  | .hbm, ⟨43, _⟩ => ⟨S50000x128, .f32⟩
  | .hbm, ⟨44, _⟩ => ⟨S_, .i32⟩
  | .hbm, ⟨45, _⟩ => ⟨S800000, .i32⟩
  | .hbm, ⟨46, _⟩ => ⟨S800000, .i1⟩
  | .hbm, ⟨47, _⟩ => ⟨S_, .i32⟩
  | .hbm, ⟨48, _⟩ => ⟨S800000, .i32⟩
  | .hbm, ⟨49, _⟩ => ⟨S800000, .i32⟩
  | .hbm, ⟨50, _⟩ => ⟨S800000, .i32⟩
  | .hbm, ⟨51, _⟩ => ⟨S800000x1, .i32⟩
  | .hbm, ⟨52, _⟩ => ⟨S800000x128, .f32⟩
  | .hbm, ⟨53, _⟩ => ⟨S_, .f32⟩
  | .hbm, ⟨54, _⟩ => ⟨S50000x128, .f32⟩
  | .hbm, ⟨55, _⟩ => ⟨S800000x1, .i32⟩
  | .hbm, ⟨56, _⟩ => ⟨S50000x128, .f32⟩
  | .hbm, ⟨57, _⟩ => ⟨S_, .f32⟩
  | .hbm, ⟨58, _⟩ => ⟨S800000, .f32⟩
  | .hbm, ⟨59, _⟩ => ⟨S_, .f32⟩
  | .hbm, ⟨60, _⟩ => ⟨S50000, .f32⟩
  | .hbm, ⟨61, _⟩ => ⟨S800000x1, .i32⟩
  | .hbm, ⟨62, _⟩ => ⟨S50000, .f32⟩
  | .hbm, ⟨63, _⟩ => ⟨S50000x128, .f32⟩
  | .hbm, ⟨64, _⟩ => ⟨S50000x1, .f32⟩
  | .hbm, ⟨65, _⟩ => ⟨S_, .f32⟩
  | .hbm, ⟨66, _⟩ => ⟨S50000x1, .f32⟩
  | .hbm, ⟨67, _⟩ => ⟨S50000x1, .f32⟩
  | .hbm, ⟨68, _⟩ => ⟨S50000x128, .f32⟩
  | .hbm, ⟨69, _⟩ => ⟨S50000x128, .f32⟩
  | .hbm, ⟨70, _⟩ => ⟨S128x128, .f32⟩
  | .hbm, ⟨71, _⟩ => ⟨S50000x128, .f32⟩
  | .hbm, ⟨72, _⟩ => ⟨S1x128, .f32⟩
  | .hbm, ⟨73, _⟩ => ⟨S50000x128, .f32⟩
  | .hbm, ⟨74, _⟩ => ⟨S50000x128, .f32⟩
  | _, _ => ⟨S50000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_c : Ref sig .tc := ⟨.hbm, 10, rfl⟩
abbrev main_v4 : Ref sig .tc := ⟨.hbm, 11, rfl⟩
abbrev main_v5 : Ref sig .tc := ⟨.hbm, 12, rfl⟩
abbrev main_c_0 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_cst_1 : Ref sig .tc := ⟨.hbm, 23, rfl⟩
abbrev main_v14 : Ref sig .tc := ⟨.hbm, 24, rfl⟩
abbrev main_cst_2 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_cst_3 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_call0_cst : Ref sig .tc := ⟨.hbm, 41, rfl⟩
abbrev main_call0_v0 : Ref sig .tc := ⟨.hbm, 42, rfl⟩
abbrev main_v29 : Ref sig .tc := ⟨.hbm, 43, rfl⟩
abbrev main_c_4 : Ref sig .tc := ⟨.hbm, 44, rfl⟩
abbrev main_v30 : Ref sig .tc := ⟨.hbm, 45, rfl⟩
abbrev main_v31 : Ref sig .tc := ⟨.hbm, 46, rfl⟩
abbrev main_c_5 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_cst_6 : Ref sig .tc := ⟨.hbm, 53, rfl⟩
abbrev main_v37 : Ref sig .tc := ⟨.hbm, 54, rfl⟩
abbrev main_v38 : Ref sig .tc := ⟨.hbm, 55, rfl⟩
abbrev main_v39 : Ref sig .tc := ⟨.hbm, 56, rfl⟩
abbrev main_cst_7 : Ref sig .tc := ⟨.hbm, 57, rfl⟩
abbrev main_v40 : Ref sig .tc := ⟨.hbm, 58, rfl⟩
abbrev main_cst_8 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_cst_9 : Ref sig .tc := ⟨.hbm, 65, rfl⟩
abbrev main_v46 : Ref sig .tc := ⟨.hbm, 66, rfl⟩
abbrev main_v47 : Ref sig .tc := ⟨.hbm, 67, rfl⟩
abbrev main_v48 : Ref sig .tc := ⟨.hbm, 68, rfl⟩
abbrev main_v49 : Ref sig .tc := ⟨.hbm, 69, rfl⟩
abbrev main_v50 : Ref sig .tc := ⟨.hbm, 70, rfl⟩
abbrev main_v51 : Ref sig .tc := ⟨.hbm, 71, rfl⟩
abbrev main_v52 : Ref sig .tc := ⟨.hbm, 72, rfl⟩
abbrev main_v53 : Ref sig .tc := ⟨.hbm, 73, rfl⟩
abbrev main_v54 : Ref sig .tc := ⟨.hbm, 74, rfl⟩

abbrev nD : Nat := 1
abbrev τ : Topo := Topo.v7x

variable {F : FTy → Type} [FloatOps F]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  bcast_S_S800000 : S_.BroadcastsInDim S800000 (![] : Fin 0 → Fin S800000.rank)
  bcast_S800000_S800000x1_0 : S800000.BroadcastsInDim S800000x1 (![0] : Fin 1 → Fin S800000x1.rank)
  bcast_S_S50000x128 : S_.BroadcastsInDim S50000x128 (![] : Fin 0 → Fin S50000x128.rank)
  bcast_S_S50000 : S_.BroadcastsInDim S50000 (![] : Fin 0 → Fin S50000.rank)
  bcast_S50000_S50000x1_0 : S50000.BroadcastsInDim S50000x1 (![0] : Fin 1 → Fin S50000x1.rank)
  bcast_S_S50000x1 : S_.BroadcastsInDim S50000x1 (![] : Fin 0 → Fin S50000x1.rank)
  bcast_S50000x1_S50000x128_0_1 : S50000x1.BroadcastsInDim S50000x128 (![0, 1] : Fin 2 → Fin S50000x128.rank)
  transposes_S128x128_S128x128_1_0 : S128x128.Transposes [1, 0] S128x128
  bcast_S128_S1x128_1 : S128.BroadcastsInDim S1x128 (![1] : Fin 1 → Fin S1x128.rank)
  bcast_S1x128_S50000x128_0_1 : S1x128.BroadcastsInDim S50000x128 (![0, 1] : Fin 2 → Fin S50000x128.rank)
  gather_S50000x128_S800000x1_S800000x128_1_0_n_n_0_1_1128_wf : GatherDims.WF S50000x128 S800000x1 S800000x128 [1] [0] [] [0] [] 1 ![1, 128]
  scatter_S50000x128_S800000x1_S800000x128_1_0_0_1_wf : ScatterDims.WF S50000x128 S800000x1 S800000x128 [1] [0] [0] 1
  scatter_S50000_S800000x1_S800000_n_0_0_1_wf : ScatterDims.WF S50000 S800000x1 S800000 [] [0] [0] 1
  dot_S50000x128_S128x128_S50000x128_1_0_0_1_n_n_wf : DotDims.WF S50000x128 S128x128 S50000x128 [1] [0] [0] [1] [] []

variable [Facts₀]

def gather_S50000x128_S800000x1_S800000x128_1_0_n_n_0_1_1128 : GatherDims S50000x128 S800000x1 S800000x128 where
  offsetDims := [1]
  collapsedSliceDims := [0]
  operandBatchingDims := []
  startIndicesBatchingDims := []
  startIndexMap := [0]
  indexVectorDim := 1
  sliceSizes := ![1, 128]
  wf := gather_S50000x128_S800000x1_S800000x128_1_0_n_n_0_1_1128_wf
def scatter_S50000x128_S800000x1_S800000x128_1_0_0_1 : ScatterDims S50000x128 S800000x1 S800000x128 where
  updateWindowDims := [1]
  insertedWindowDims := [0]
  scatterDimsToOperandDims := [0]
  indexVectorDim := 1
  wf := scatter_S50000x128_S800000x1_S800000x128_1_0_0_1_wf
def scatter_S50000_S800000x1_S800000_n_0_0_1 : ScatterDims S50000 S800000x1 S800000 where
  updateWindowDims := []
  insertedWindowDims := [0]
  scatterDimsToOperandDims := [0]
  indexVectorDim := 1
  wf := scatter_S50000_S800000x1_S800000_n_0_0_1_wf
def dot_S50000x128_S128x128_S50000x128_1_0_0_1_n_n : DotDims S50000x128 S128x128 S50000x128 where
  lhsContracting := [1]
  rhsContracting := [0]
  lhsNonContracting := [0]
  rhsNonContracting := [1]
  lhsBatch := []
  rhsBatch := []
  wf := dot_S50000x128_S128x128_S50000x128_1_0_0_1_n_n_wf

class Facts : Prop extends Facts₀ where

variable [Facts]
-- ==== Proof.KernelRun.lean ====
/-
  The kernel program's run with its result named.

  The program is two pipelined regions among stretches of host operations. Running it from a memory with zero
  counters, every weakly fair execution terminates without a fault, and at the end every unscoped buffer of the core
  holds the contents the fold of the segments assigns it: the host stretches applied as pure operations, each region's
  arrays at what its write-backs leave. Read at the result buffer this names the result; read at an argument it walks
  back to the launch memory.
-/
import proofs.«134690_j82205674045926_2_alg».proof.Proof.Gen.KernelIdeal.Frame

set_option maxRecDepth 16384

noncomputable section

namespace Cert.Sage.Kernel

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of the program terminates without a fault; the result buffer ends at the last
    boundary's contents and every argument as launched. -/
theorem run_out : θ_run defs (onTc (τ := τ) (main (F := F))) ⟨m, fun _ => 0, ρ⟩ (fun r => ∀ c : Dev nD,
      r.2.mem ((c.tc : Thread nD τ).loc main_v40) = W4 m ρ c (Proc.devRef .tc main_v40)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m ρ c b)
    (hfin := fun c s' => by
      iintro ⟨⟨Hh, -⟩, HSI⟩
      unfold StableHlo.held
      imodintro
      iapply (pointsTo_read_all (Pipeline.ucRefs τ sig) (fun b => (((c : Thread nD τ)).1, b)) (W4 m ρ c) s')
      isplitl [Hh] <;> iassumption)
    (hQ := fun s h c =>
      ⟨h c _ (mem_uc main_v40 (by decide)),
       (h c _ (mem_uc main_arg0 (by decide))).trans (W4_main_arg0 m ρ c),
       (h c _ (mem_uc main_arg1 (by decide))).trans (W4_main_arg1 m ρ c),
       (h c _ (mem_uc main_arg2 (by decide))).trans (W4_main_arg2 m ρ c),
       (h c _ (mem_uc main_arg3 (by decide))).trans (W4_main_arg3 m ρ c),
       (h c _ (mem_uc main_arg4 (by decide))).trans (W4_main_arg4 m ρ c),
       (h c _ (mem_uc main_arg5 (by decide))).trans (W4_main_arg5 m ρ c)⟩)

end Cert.Sage.Kernel

end
-- ==== Proof.LibMlpAt.lean ====
/-
  The two-layer perceptron with rectifiers, read at one entry.

  For matrices x : [N, K], wa : [K, D], wb : [D, D] and one-row biases ba, bb : [1, D] the value at (r, q) is
      max (∑ j, max (∑ i, x[r,i] · wa[i,j] + ba[0,j]) 0 · wb[j,q] + bb[0,q]) 0
  on the extended reals. Two spellings of that function occur: the host's (two `dot_general`s, the biases broadcast
  along the rows, the rectifier a maximum with a broadcast zero) and a tile's (two matrix products into a zero
  accumulator with the operands narrowed to bf16 first, the biases broadcast as vectors). At the ideal values a change of
  format is the identity and both products are plain sums over the contracted coordinate, so each spelling reads the
  formula above at every entry; nothing here needs the entries to be finite.
-/
import Idealize.ShloMosaic.Lib.ValueIdx
import Idealize.ShloMosaic.Lib.ValueLayout
import Idealize.ShloMosaic.Lib.Pipeline.Value
import Idealize.ShloMosaic.PureOps.Ideal.Laws

noncomputable section

open scoped BigOperators

namespace Cert.Mlp

open Idealize.ShloMosaic Idealize.ShloMosaic.ValueIdx

/-! ## A plain matrix product's dimension numbers, and its sum -/

/-- The dimension numbers of a plain product [m, k] × [k, n] → [m, n]: contract the left operand's axis 1 with the
    right operand's axis 0. -/
abbrev D2 {m k n : Nat} (w : DotDims.WF ⟨2, ![m, k]⟩ ⟨2, ![k, n]⟩ ⟨2, ![m, n]⟩ [1] [0] [0] [1] [] []) :
    DotDims ⟨2, ![m, k]⟩ ⟨2, ![k, n]⟩ ⟨2, ![m, n]⟩ := ⟨[1], [0], [0], [1], [], [], w⟩

variable {m k n : Nat}

/-- The left operand's index at output (a, b) and contracted coordinate c is (a, c). -/
theorem lhsIdx_D2 (w : DotDims.WF ⟨2, ![m, k]⟩ ⟨2, ![k, n]⟩ ⟨2, ![m, n]⟩ [1] [0] [0] [1] [] []) (a : Fin m) (b : Fin n) (c : Fin k) :
    (D2 w).lhsIdx (ix2 a b) ((contrEquiv1 (D2 w) k rfl rfl).symm c) = ix2 a c := by
  have c2 := contrEquiv1_symm_val (D2 w) k rfl rfl c
  funext ax; apply Fin.ext
  match ax with
  | ⟨0, _⟩ => simp [DotDims.lhsIdx]; rfl
  | ⟨1, _⟩ => simp [DotDims.lhsIdx]; exact c2

/-- The right operand's index at output (a, b) and contracted coordinate c is (c, b). -/
theorem rhsIdx_D2 (w : DotDims.WF ⟨2, ![m, k]⟩ ⟨2, ![k, n]⟩ ⟨2, ![m, n]⟩ [1] [0] [0] [1] [] []) (a : Fin m) (b : Fin n) (c : Fin k) :
    (D2 w).rhsIdx (ix2 a b) ((contrEquiv1 (D2 w) k rfl rfl).symm c) = ix2 c b := by
  have c2 := contrEquiv1_symm_val (D2 w) k rfl rfl c
  funext ax; apply Fin.ext
  match ax with
  | ⟨0, _⟩ => simp [DotDims.rhsIdx]; exact c2
  | ⟨1, _⟩ => simp [DotDims.rhsIdx]; rfl

/-- The host's product at (a, b): the sum over the contracted coordinate of the entries' products. -/
theorem dotGeneral_at {φ₁ φ₂ : FTy} (w : DotDims.WF ⟨2, ![m, k]⟩ ⟨2, ![k, n]⟩ ⟨2, ![m, n]⟩ [1] [0] [0] [1] [] [])
    (prec : Option ContractPrecision) (A : FVec Ideal ⟨2, ![m, k]⟩ φ₁) (B : FVec Ideal ⟨2, ![k, n]⟩ φ₂) (a : Fin m) (b : Fin n) :
    Host.dotGeneral (D2 w) prec A B (ix2 a b) = ∑ c : Fin k, A (ix2 a c) * B (ix2 c b) := by
  show FloatOps.dotGeneral _ prec _ A B (ix2 a b) = _
  rw [Ideal.dotGeneral_apply, ← Equiv.sum_comp (contrEquiv1 (D2 w) k rfl rfl).symm]
  refine Finset.sum_congr rfl fun c _ => ?_
  rw [lhsIdx_D2, rhsIdx_D2]

/-- A tile's product into a zero accumulator at (a, b): the same sum. -/
theorem matmul_zero_at {φ₁ φ₂ : FTy} (w : DotDims.WF ⟨2, ![m, k]⟩ ⟨2, ![k, n]⟩ ⟨2, ![m, n]⟩ [1] [0] [0] [1] [] [])
    (prec : Option ContractPrecision) (A : FVec Ideal ⟨2, ![m, k]⟩ φ₁) (B : FVec Ideal ⟨2, ![k, n]⟩ φ₂) (a : Fin m) (b : Fin n) :
    matmul (D2 w) prec A B (constant ⟨2, ![m, n]⟩ .f32 0x00000000#32) (ix2 a b) = ∑ c : Fin k, A (ix2 a c) * B (ix2 c b) := by
  show FloatOps.matmul _ prec A B _ (ix2 a b) = _
  rw [Ideal.matmul_constant_zero_apply, ← Equiv.sum_comp (contrEquiv1 (D2 w) k rfl rfl).symm]
  refine Finset.sum_congr rfl fun c _ => ?_
  rw [lhsIdx_D2, rhsIdx_D2]

/-! ## Broadcasts of a one-row bias and of a scalar, at an entry -/

/-- A [1, D] row broadcast along the rows of [N, D] reads, at (r, q), the row at q. -/
theorem bcastRow_at {N D : Nat} {α : Type} (h : (⟨2, ![1, D]⟩ : Shape).BroadcastsInDim ⟨2, ![N, D]⟩ (![0, 1] : Fin 2 → Fin 2))
    (v : (⟨2, ![1, D]⟩ : Shape).Idx → α) (r : Fin N) (q : Fin D) :
    broadcastInDim ⟨2, ![N, D]⟩ (![0, 1] : Fin 2 → Fin 2) h v (ix2 r q) = v (ix2 (0 : Fin 1) q) := by
  refine broadcastInDim_apply _ h v (ix2 r q) (ix2 (0 : Fin 1) q) fun ax => ?_
  match ax with
  | ⟨0, _⟩ => rfl
  | ⟨1, _⟩ =>
    show q.val = if D = 1 then 0 else q.val
    split
    · have := q.isLt; omega
    · rfl

/-- A scalar broadcast to [N, D] reads the scalar everywhere. -/
theorem bcastScalar_at {N D : Nat} {α : Type} (h : (⟨0, ![]⟩ : Shape).BroadcastsInDim ⟨2, ![N, D]⟩ (![] : Fin 0 → Fin 2))
    (v : (⟨0, ![]⟩ : Shape).Idx → α) (i : (⟨2, ![N, D]⟩ : Shape).Idx) :
    broadcastInDim ⟨2, ![N, D]⟩ (![] : Fin 0 → Fin 2) h v i = v ix0 :=
  broadcastInDim_apply _ h v i ix0 fun ax => ax.elim0

/-- A [D] vector viewed as its one row [1, D] is the vector broadcast along a new leading unit axis: both read the
    vector's entry i at (0, i). -/
theorem rowCast_eq_bcast {D : Nat} {α : Type} (x : (⟨1, ![D]⟩ : Shape).Idx → α) (h : (⟨1, ![D]⟩ : Shape).ShapeCasts ⟨2, ![1, D]⟩)
    (h' : (⟨1, ![D]⟩ : Shape).BroadcastsInDim ⟨2, ![1, D]⟩ (![1] : Fin 1 → Fin 2)) :
    shapeCast ⟨2, ![1, D]⟩ x h = broadcastInDim ⟨2, ![1, D]⟩ (![1] : Fin 1 → Fin 2) h' x := by
  funext j
  obtain ⟨u, i, rfl⟩ : ∃ (u : Fin 1) (i : Fin D), j = ix2 u i := ⟨j 0, j 1, eq_ix2 j⟩
  rw [shapeCast_a_1a_apply]
  refine (broadcastInDim_apply _ h' x (ix2 u i) (ix1 i) fun ax => ?_).symm
  match ax with
  | ⟨0, _⟩ =>
    show i.val = if D = 1 then 0 else i.val
    split
    · have := i.isLt; omega
    · rfl

/-! ## The perceptron at an entry -/

/-- The value at (r, q): the second layer's rectified affine map of the first layer's. -/
def mlpVal {N K D : Nat} (x : FVec Ideal ⟨2, ![N, K]⟩ .f32) (wa : FVec Ideal ⟨2, ![K, D]⟩ .f32) (ba : FVec Ideal ⟨2, ![1, D]⟩ .f32)
    (wb : FVec Ideal ⟨2, ![D, D]⟩ .f32) (bb : FVec Ideal ⟨2, ![1, D]⟩ .f32) (r : Fin N) (q : Fin D) : Ideal .f32 :=
  max ((∑ j : Fin D, max ((∑ i : Fin K, x (ix2 r i) * wa (ix2 i j)) + ba (ix2 (0 : Fin 1) j)) (Ideal.ofBits .f32 0x00000000#32) * wb (ix2 j q))
    + bb (ix2 (0 : Fin 1) q)) (Ideal.ofBits .f32 0x00000000#32)

/-- The value at row r depends only on row r of x: two inputs with equal rows give equal values. -/
theorem mlpVal_congr_row {N N' K D : Nat} (x : FVec Ideal ⟨2, ![N, K]⟩ .f32) (x' : FVec Ideal ⟨2, ![N', K]⟩ .f32)
    (wa : FVec Ideal ⟨2, ![K, D]⟩ .f32) (ba : FVec Ideal ⟨2, ![1, D]⟩ .f32) (wb : FVec Ideal ⟨2, ![D, D]⟩ .f32) (bb : FVec Ideal ⟨2, ![1, D]⟩ .f32)
    (r : Fin N) (r' : Fin N') (hrow : ∀ i : Fin K, x (ix2 r i) = x' (ix2 r' i)) (q : Fin D) :
    mlpVal x wa ba wb bb r q = mlpVal x' wa ba wb bb r' q := by
  unfold mlpVal
  simp only [hrow]

/-- The host's spelling: two `dot_general`s, the biases broadcast along the rows, each rectifier a maximum with a
    broadcast zero. -/
def mlpHost {N K D : Nat} (wA : DotDims.WF ⟨2, ![N, K]⟩ ⟨2, ![K, D]⟩ ⟨2, ![N, D]⟩ [1] [0] [0] [1] [] [])
    (wB : DotDims.WF ⟨2, ![N, D]⟩ ⟨2, ![D, D]⟩ ⟨2, ![N, D]⟩ [1] [0] [0] [1] [] [])
    (hb : (⟨2, ![1, D]⟩ : Shape).BroadcastsInDim ⟨2, ![N, D]⟩ (![0, 1] : Fin 2 → Fin 2))
    (hz : (⟨0, ![]⟩ : Shape).BroadcastsInDim ⟨2, ![N, D]⟩ (![] : Fin 0 → Fin 2))
    (x : FVec Ideal ⟨2, ![N, K]⟩ .f32) (wa : FVec Ideal ⟨2, ![K, D]⟩ .f32) (ba : FVec Ideal ⟨2, ![1, D]⟩ .f32)
    (wb : FVec Ideal ⟨2, ![D, D]⟩ .f32) (bb : FVec Ideal ⟨2, ![1, D]⟩ .f32) : FVec Ideal ⟨2, ![N, D]⟩ .f32 :=
  maximumf (addf (Host.dotGeneral (D2 wB) none
      (maximumf (addf (Host.dotGeneral (D2 wA) none x wa) (broadcastInDim ⟨2, ![N, D]⟩ (![0, 1] : Fin 2 → Fin 2) hb ba))
        (broadcastInDim ⟨2, ![N, D]⟩ (![] : Fin 0 → Fin 2) hz (constant (F := Ideal) ⟨0, ![]⟩ .f32 0x00000000#32))) wb)
      (broadcastInDim ⟨2, ![N, D]⟩ (![0, 1] : Fin 2 → Fin 2) hb bb))
    (broadcastInDim ⟨2, ![N, D]⟩ (![] : Fin 0 → Fin 2) hz (constant (F := Ideal) ⟨0, ![]⟩ .f32 0x00000000#32))

theorem mlpHost_at {N K D : Nat} (wA : DotDims.WF ⟨2, ![N, K]⟩ ⟨2, ![K, D]⟩ ⟨2, ![N, D]⟩ [1] [0] [0] [1] [] [])
    (wB : DotDims.WF ⟨2, ![N, D]⟩ ⟨2, ![D, D]⟩ ⟨2, ![N, D]⟩ [1] [0] [0] [1] [] [])
    (hb : (⟨2, ![1, D]⟩ : Shape).BroadcastsInDim ⟨2, ![N, D]⟩ (![0, 1] : Fin 2 → Fin 2))
    (hz : (⟨0, ![]⟩ : Shape).BroadcastsInDim ⟨2, ![N, D]⟩ (![] : Fin 0 → Fin 2))
    (x : FVec Ideal ⟨2, ![N, K]⟩ .f32) (wa : FVec Ideal ⟨2, ![K, D]⟩ .f32) (ba : FVec Ideal ⟨2, ![1, D]⟩ .f32)
    (wb : FVec Ideal ⟨2, ![D, D]⟩ .f32) (bb : FVec Ideal ⟨2, ![1, D]⟩ .f32) (r : Fin N) (q : Fin D) :
    mlpHost wA wB hb hz x wa ba wb bb (ix2 r q) = mlpVal x wa ba wb bb r q := by
  unfold mlpHost mlpVal
  rw [maximumf_apply, addf_apply, dotGeneral_at, bcastRow_at, bcastScalar_at, constant_apply]
  refine congrArg (fun s => max (s + bb (ix2 (0 : Fin 1) q)) (Ideal.ofBits .f32 0x00000000#32)) ?_
  refine Finset.sum_congr rfl fun j _ => ?_
  rw [maximumf_apply, addf_apply, dotGeneral_at, bcastRow_at, bcastScalar_at, constant_apply]

/-- The host's spelling with the biases given as vectors [D], each made a row by a broadcast along a new unit axis. -/
def mlpHostV {N K D : Nat} (wA : DotDims.WF ⟨2, ![N, K]⟩ ⟨2, ![K, D]⟩ ⟨2, ![N, D]⟩ [1] [0] [0] [1] [] [])
    (wB : DotDims.WF ⟨2, ![N, D]⟩ ⟨2, ![D, D]⟩ ⟨2, ![N, D]⟩ [1] [0] [0] [1] [] [])
    (hb : (⟨2, ![1, D]⟩ : Shape).BroadcastsInDim ⟨2, ![N, D]⟩ (![0, 1] : Fin 2 → Fin 2))
    (hz : (⟨0, ![]⟩ : Shape).BroadcastsInDim ⟨2, ![N, D]⟩ (![] : Fin 0 → Fin 2))
    (hr : (⟨1, ![D]⟩ : Shape).BroadcastsInDim ⟨2, ![1, D]⟩ (![1] : Fin 1 → Fin 2))
    (x : FVec Ideal ⟨2, ![N, K]⟩ .f32) (wa : FVec Ideal ⟨2, ![K, D]⟩ .f32) (ba : FVec Ideal ⟨1, ![D]⟩ .f32)
    (wb : FVec Ideal ⟨2, ![D, D]⟩ .f32) (bb : FVec Ideal ⟨1, ![D]⟩ .f32) : FVec Ideal ⟨2, ![N, D]⟩ .f32 :=
  mlpHost wA wB hb hz x wa (broadcastInDim ⟨2, ![1, D]⟩ (![1] : Fin 1 → Fin 2) hr ba) wb
    (broadcastInDim ⟨2, ![1, D]⟩ (![1] : Fin 1 → Fin 2) hr bb)

/-- With the biases reshaped to one row instead: the same array. -/
theorem mlpHost_rowCast {N K D : Nat} (wA : DotDims.WF ⟨2, ![N, K]⟩ ⟨2, ![K, D]⟩ ⟨2, ![N, D]⟩ [1] [0] [0] [1] [] [])
    (wB : DotDims.WF ⟨2, ![N, D]⟩ ⟨2, ![D, D]⟩ ⟨2, ![N, D]⟩ [1] [0] [0] [1] [] [])
    (hb : (⟨2, ![1, D]⟩ : Shape).BroadcastsInDim ⟨2, ![N, D]⟩ (![0, 1] : Fin 2 → Fin 2))
    (hz : (⟨0, ![]⟩ : Shape).BroadcastsInDim ⟨2, ![N, D]⟩ (![] : Fin 0 → Fin 2))
    (hr : (⟨1, ![D]⟩ : Shape).BroadcastsInDim ⟨2, ![1, D]⟩ (![1] : Fin 1 → Fin 2))
    (hc : (⟨1, ![D]⟩ : Shape).ShapeCasts ⟨2, ![1, D]⟩)
    (x : FVec Ideal ⟨2, ![N, K]⟩ .f32) (wa : FVec Ideal ⟨2, ![K, D]⟩ .f32) (ba : FVec Ideal ⟨1, ![D]⟩ .f32)
    (wb : FVec Ideal ⟨2, ![D, D]⟩ .f32) (bb : FVec Ideal ⟨1, ![D]⟩ .f32) :
    mlpHost wA wB hb hz x wa (shapeCast ⟨2, ![1, D]⟩ ba hc) wb (shapeCast ⟨2, ![1, D]⟩ bb hc)
      = mlpHostV wA wB hb hz hr x wa ba wb bb := by
  unfold mlpHostV
  rw [rowCast_eq_bcast ba hc hr, rowCast_eq_bcast bb hc hr]

/-- A tile's spelling: the operands narrowed to bf16, two products into a zero accumulator, the biases broadcast as
    vectors, each rectifier a maximum with a splat zero. -/
def mlpTile {T K D : Nat} (wA : DotDims.WF ⟨2, ![T, K]⟩ ⟨2, ![K, D]⟩ ⟨2, ![T, D]⟩ [1] [0] [0] [1] [] [])
    (wB : DotDims.WF ⟨2, ![T, D]⟩ ⟨2, ![D, D]⟩ ⟨2, ![T, D]⟩ [1] [0] [0] [1] [] [])
    (hb : (⟨2, ![1, D]⟩ : Shape).Broadcasts ⟨2, ![T, D]⟩) (hlt : FTy.bf16.bits < FTy.f32.bits)
    (x : FVec Ideal ⟨2, ![T, K]⟩ .f32) (wa : FVec Ideal ⟨2, ![K, D]⟩ .f32) (ba : FVec Ideal ⟨2, ![1, D]⟩ .f32)
    (wb : FVec Ideal ⟨2, ![D, D]⟩ .f32) (bb : FVec Ideal ⟨2, ![1, D]⟩ .f32) : FVec Ideal ⟨2, ![T, D]⟩ .f32 :=
  maximumf (addf (matmul (D2 wB) none
      (truncf .bf16 (maximumf (addf (matmul (D2 wA) none (truncf .bf16 x hlt) (truncf .bf16 wa hlt) (constant ⟨2, ![T, D]⟩ .f32 0x00000000#32))
          (broadcastTo ⟨2, ![T, D]⟩ ba hb)) (broadcast ⟨2, ![T, D]⟩ (Scalar.ofBits (F := Ideal) .f32 0x00000000#32))) hlt)
      (truncf .bf16 wb hlt) (constant ⟨2, ![T, D]⟩ .f32 0x00000000#32))
      (broadcastTo ⟨2, ![T, D]⟩ bb hb))
    (broadcast ⟨2, ![T, D]⟩ (Scalar.ofBits (F := Ideal) .f32 0x00000000#32))

theorem mlpTile_at {T K D : Nat} (wA : DotDims.WF ⟨2, ![T, K]⟩ ⟨2, ![K, D]⟩ ⟨2, ![T, D]⟩ [1] [0] [0] [1] [] [])
    (wB : DotDims.WF ⟨2, ![T, D]⟩ ⟨2, ![D, D]⟩ ⟨2, ![T, D]⟩ [1] [0] [0] [1] [] [])
    (hb : (⟨2, ![1, D]⟩ : Shape).Broadcasts ⟨2, ![T, D]⟩) (hlt : FTy.bf16.bits < FTy.f32.bits)
    (x : FVec Ideal ⟨2, ![T, K]⟩ .f32) (wa : FVec Ideal ⟨2, ![K, D]⟩ .f32) (ba : FVec Ideal ⟨2, ![1, D]⟩ .f32)
    (wb : FVec Ideal ⟨2, ![D, D]⟩ .f32) (bb : FVec Ideal ⟨2, ![1, D]⟩ .f32) (p : Fin T) (q : Fin D) :
    mlpTile wA wB hb hlt x wa ba wb bb (ix2 p q) = mlpVal x wa ba wb bb p q := by
  unfold mlpTile mlpVal
  rw [maximumf_apply, addf_apply, matmul_zero_at, broadcastTo_1b_ab_apply, broadcast_apply]
  refine congrArg (fun s => max (s + bb (ix2 (0 : Fin 1) q)) (Ideal.ofBits .f32 0x00000000#32)) ?_
  refine Finset.sum_congr rfl fun j _ => ?_
  rw [truncf_apply, truncf_apply, maximumf_apply, addf_apply, matmul_zero_at, broadcastTo_1b_ab_apply, broadcast_apply]
  refine congrArg (fun s => max (s + ba (ix2 (0 : Fin 1) j)) (Ideal.ofBits .f32 0x00000000#32) * wb (ix2 j q)) ?_
  refine Finset.sum_congr rfl fun i _ => ?_
  rw [truncf_apply, truncf_apply]

end Cert.Mlp

end
-- ==== Proof.LibColumn.lean ====
/-
  The keepdims column forms, read at an index (general lemmas: any extents, any element type).

  A per-row quantity is kept as a column: an array of `a` entries viewed as `[a, 1]`, and that column repeated along
  `b` lanes to `[a, b]`. At `(i, u)` the column reads the entry `i` (its second coordinate `u` can only be 0); at
  `(p, c)` the repeated column reads the column's row `p`, whatever the lane `c`.
-/
import Idealize.ShloMosaic.Lib.Pipeline.Value
import Idealize.ShloMosaic.Lib.ValueIdx

namespace Cert.Lib.Column

open Idealize.ShloMosaic Idealize.ShloMosaic.ValueIdx

variable {α : Type}

/-- `Cert.Lib.Column.shapeCast_a_a1_apply`: an `[a]` array cast to `[a, 1]` reads, at `(i, u)`, the operand at `i`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    omega)

/-- `Cert.Lib.Column.broadcastTo_a1_ab_apply`: an `[a, 1]` column broadcast to `[a, b]` reads, at `(p, c)`, the
    column's row `p`. -/
theorem broadcastTo_a1_ab_apply {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Cert.Lib.Column
-- ==== Proof.KernelBody.lean ====
/-
  The two kernel bodies, read at one entry.

  A body works on a block of 5000 nodes: the block x0 of neighbourhood sums, the block x1 of the nodes' own features,
  the column x2 of reciprocal degrees (one per node), the transposed weight matrix x3 and the bias x4. It forms
  (x0 + x1) scaled row by row by x2, multiplies that by x3 on the matrix unit into a zero accumulator, and adds the bias
  along the rows. At the ideal values a change of float format is the identity and the matrix product is the plain sum
  over the contracted coordinate, so at (p, q) the body's value is
      ∑ k, ((x0[p,k] + x1[p,k]) · x2[p,0]) · x3[k,q] + x4[q],
  which the first layer's body then rectifies (a maximum with zero) and the second layer's does not.
-/
import proofs.«134690_j82205674045926_2_alg».proof.Proof.Gen.KernelIdeal.Skeleton
import proofs.«134690_j82205674045926_2_alg».proof.Proof.LibMlpAt
import proofs.«134690_j82205674045926_2_alg».proof.Proof.LibColumn
import Idealize.ShloMosaic.Lib.ValueIdx
import Idealize.ShloMosaic.Lib.ValueLayout
import Idealize.ShloMosaic.Lib.Pipeline.Value

noncomputable section

open scoped BigOperators

namespace Cert.Sage.Kernel

open Cert.KernelIdeal Cert.KernelIdeal.Gen Idealize.ShloMosaic Idealize.ShloMosaic.ValueIdx

/-- A body's value at row p of the block and output feature q, before any rectifier. -/
def blockAt (x0 x1 : Vec Ideal S5000x128 .f32) (x2 : Vec Ideal S5000x1 .f32) (x3 : Vec Ideal S128x128 .f32)
    (x4 : Vec Ideal S128 .f32) (p : Fin 5000) (q : Fin 128) : Ideal .f32 :=
  (∑ k : Fin 128, ((x0 (ix2 p k) + x1 (ix2 p k)) * x2 (ix2 p (0 : Fin 1))) * x3 (ix2 k q)) + x4 (ix1 q)

/-- The kernel's product record is the plain one: contract the left operand's axis 1 with the right operand's axis 0. -/
theorem dot_plain : dot_S5000x128_S128x128_S5000x128_1_0_0_1_n_n
    = Cert.Mlp.D2 (m := 5000) (k := 128) (n := 128) Facts₀.dot_S5000x128_S128x128_S5000x128_1_0_0_1_n_n_wf := rfl

/-- The first layer's body at (p, q): the rectified value. -/
theorem pay0_at (x0 x1 : Vec Ideal S5000x128 .f32) (x2 : Vec Ideal S5000x1 .f32) (x3 : Vec Ideal S128x128 .f32)
    (x4 : Vec Ideal S128 .f32) (p : Fin 5000) (q : Fin 128) :
    k0_pay1 (F := Ideal) x0 x1 x2 x3 x4 (ix2 p q) = max (blockAt x0 x1 x2 x3 x4 p q) (Ideal.ofBits .f32 0x00000000#32) := by
  unfold k0_pay1 blockAt
  rw [maximumf_apply, addf_apply, broadcast_apply, dot_plain, Cert.Mlp.matmul_zero_at, broadcastTo_1b_ab_apply,
    shapeCast_a_1a_apply]
  refine congrArg (fun s => max (s + x4 (ix1 q)) (Ideal.ofBits .f32 0x00000000#32)) ?_
  refine Finset.sum_congr rfl fun k _ => ?_
  rw [truncf_apply, truncf_apply, mulf_apply, addf_apply, shapeCast_self, shapeCast_self, shapeCast_self,
    Cert.Lib.Column.broadcastTo_a1_ab_apply]

/-- The second layer's body at (p, q): the value itself. -/
theorem pay1_at (x0 x1 : Vec Ideal S5000x128 .f32) (x2 : Vec Ideal S5000x1 .f32) (x3 : Vec Ideal S128x128 .f32)
    (x4 : Vec Ideal S128 .f32) (p : Fin 5000) (q : Fin 128) :
    k1_pay1 (F := Ideal) x0 x1 x2 x3 x4 (ix2 p q) = blockAt x0 x1 x2 x3 x4 p q := by
  unfold k1_pay1 blockAt
  rw [addf_apply, dot_plain, Cert.Mlp.matmul_zero_at, broadcastTo_1b_ab_apply, shapeCast_a_1a_apply]
  refine congrArg (fun s => s + x4 (ix1 q)) ?_
  refine Finset.sum_congr rfl fun k _ => ?_
  rw [truncf_apply, truncf_apply, mulf_apply, addf_apply, shapeCast_self, shapeCast_self, shapeCast_self, shapeCast_self,
    Cert.Lib.Column.broadcastTo_a1_ab_apply]

end Cert.Sage.Kernel

end
-- ==== Proof.KernelBlocks.lean ====
/-
  From blocks to the whole array, for each of the two regions.

  A region tiles its 50000 nodes into ten blocks of 5000 rows; grid point t stages rows 5000·t … 5000·t + 4999 of the
  neighbourhood sums, of the features and of the reciprocal-degree column, the whole transposed weight matrix and the
  whole bias, and writes back rows 5000·t … of the result. Row p of point t's block is row 5000·t + p of the array, so
  what a point writes back is the whole-array function below read through that point's block; the ten blocks cover the
  array (row r lies in the block of point r / 5000), hence the array ends holding that function everywhere.
-/
import proofs.«134690_j82205674045926_2_alg».proof.Proof.Gen.KernelIdeal.Frame
import proofs.«134690_j82205674045926_2_alg».proof.Proof.KernelBody
import Idealize.ShloMosaic.Lib.Pipeline.Value
import Idealize.ShloMosaic.Lib.ValueIdx

set_option maxRecDepth 16384

noncomputable section

open scoped BigOperators

namespace Cert.Sage.Kernel

open Cert.KernelIdeal Cert.KernelIdeal.Gen Idealize.ShloMosaic Idealize.ShloMosaic.TcCoe Idealize.ShloMosaic.ValueIdx
open Idealize.SL.Sem
open Idealize.ShloMosaic.Pipeline (Dat Cfg Window)

/-- A region's value at node r and output feature q before any rectifier, from the whole arrays it is entered with:
    neighbourhood sums A, features X, reciprocal-degree column inv, transposed weights WT, bias b. -/
def regionAt (A X : FVec Ideal S50000x128 .f32) (inv : FVec Ideal S50000x1 .f32) (WT : FVec Ideal S128x128 .f32)
    (b : FVec Ideal S128 .f32) (r : Fin 50000) (q : Fin 128) : Ideal .f32 :=
  (∑ k : Fin 128, ((A (ix2 r k) + X (ix2 r k)) * inv (ix2 r (0 : Fin 1))) * WT (ix2 k q)) + b (ix1 q)

/-- The first region's result array: rectified. -/
def region0 (A X : FVec Ideal S50000x128 .f32) (inv : FVec Ideal S50000x1 .f32) (WT : FVec Ideal S128x128 .f32)
    (b : FVec Ideal S128 .f32) : FVec Ideal S50000x128 .f32 :=
  fun i => max (regionAt A X inv WT b (i 0) (i 1)) (Ideal.ofBits .f32 0x00000000#32)

/-- The second region's result array: not rectified. -/
def region1 (A X : FVec Ideal S50000x128 .f32) (inv : FVec Ideal S50000x1 .f32) (WT : FVec Ideal S128x128 .f32)
    (b : FVec Ideal S128 .f32) : FVec Ideal S50000x128 .f32 :=
  fun i => regionAt A X inv WT b (i 0) (i 1)

theorem hz2 : (![0, 0] : Fin 2 → Nat) = fun _ => 0 := funext fun a => by fin_cases a <;> rfl
theorem hz1 : (![0] : Fin 1 → Nat) = fun _ => 0 := funext fun a => by fin_cases a; rfl

/-- A body's value at (p, q) of a block is the region's value at the array index i, when each block entry the body reads
    is the array entry at i's row (and, for weights and bias, i's column). -/
theorem block0_eq (A X : FVec Ideal S50000x128 .f32) (inv : FVec Ideal S50000x1 .f32) (WT : FVec Ideal S128x128 .f32)
    (b : FVec Ideal S128 .f32) (x0 x1 : Vec Ideal S5000x128 .f32) (x2 : Vec Ideal S5000x1 .f32) (x3 : Vec Ideal S128x128 .f32)
    (x4 : Vec Ideal S128 .f32) (i : S50000x128.Idx) (p : Fin 5000) (q : Fin 128)
    (h0 : ∀ k : Fin 128, x0 (ix2 p k) = A (ix2 (i 0) k)) (h1 : ∀ k : Fin 128, x1 (ix2 p k) = X (ix2 (i 0) k))
    (h2 : x2 (ix2 p (0 : Fin 1)) = inv (ix2 (i 0) (0 : Fin 1))) (h3 : ∀ k : Fin 128, x3 (ix2 k q) = WT (ix2 k (i 1)))
    (h4 : x4 (ix1 q) = b (ix1 (i 1))) :
    k0_pay1 (F := Ideal) x0 x1 x2 x3 x4 (ix2 p q) = region0 A X inv WT b i := by
  rw [pay0_at]
  unfold blockAt region0 regionAt
  simp only [h0, h1, h2, h3, h4]

theorem block1_eq (A X : FVec Ideal S50000x128 .f32) (inv : FVec Ideal S50000x1 .f32) (WT : FVec Ideal S128x128 .f32)
    (b : FVec Ideal S128 .f32) (x0 x1 : Vec Ideal S5000x128 .f32) (x2 : Vec Ideal S5000x1 .f32) (x3 : Vec Ideal S128x128 .f32)
    (x4 : Vec Ideal S128 .f32) (i : S50000x128.Idx) (p : Fin 5000) (q : Fin 128)
    (h0 : ∀ k : Fin 128, x0 (ix2 p k) = A (ix2 (i 0) k)) (h1 : ∀ k : Fin 128, x1 (ix2 p k) = X (ix2 (i 0) k))
    (h2 : x2 (ix2 p (0 : Fin 1)) = inv (ix2 (i 0) (0 : Fin 1))) (h3 : ∀ k : Fin 128, x3 (ix2 k q) = WT (ix2 k (i 1)))
    (h4 : x4 (ix1 q) = b (ix1 (i 1))) :
    k1_pay1 (F := Ideal) x0 x1 x2 x3 x4 (ix2 p q) = region1 A X inv WT b i := by
  rw [pay1_at]
  unfold blockAt region1 regionAt
  simp only [h0, h1, h2, h3, h4]

/-! ## Region 0 (the first layer) -/

/-- The printed index maps, decided once over the grid: point t's block index is t along the rows for the three row-tiled
    inputs and the output, and zero everywhere else. -/
theorem idx_facts0 : ∀ t : Fin cfg0.N,
    win0_5.index t (0 : Fin 2) = t.val ∧ win0_5.index t (1 : Fin 2) = 0
    ∧ win0_0.index t (0 : Fin 2) = t.val ∧ win0_0.index t (1 : Fin 2) = 0
    ∧ win0_1.index t (0 : Fin 2) = t.val ∧ win0_1.index t (1 : Fin 2) = 0
    ∧ win0_2.index t (0 : Fin 2) = t.val ∧ win0_2.index t (1 : Fin 2) = 0
    ∧ win0_3.index t (0 : Fin 2) = 0 ∧ win0_3.index t (1 : Fin 2) = 0
    ∧ win0_4.index t (0 : Fin 1) = 0 :=
  (by decide +kernel : ∀ t : Fin grid0.N, _)

/-- What point t writes back is block t of the region's whole-array function of the arrays the region is entered with. -/
theorem flushed0_eq (V : (c : Dev nD) → (b : Ref sig .tc) → Buf (Elt Ideal) ((c : Thread nD τ).loc b)) (c : Dev nD)
    (t : Fin cfg0.N) :
    (dat0 (F := Ideal) V c).flushed 5 t = ((cfg0.win 5).blk t).view.read (Elt Ideal)
      (region0 (V c main_v24) (V c main_arg0) (V c main_v12) (V c main_v25) (V c main_arg3)) := by
  show (cfg0.win 5).cut (grid0.coords t) ((dat0 V c).after 5 t) = _
  rw [after0_5]
  unfold out0_5
  rw [View.canon_unit_zero hz2]
  simp only [View.ld_unit_zero (S := S5000x128) hz2, View.ld_unit_zero (S := S5000x1) hz2,
    View.ld_unit_zero (S := S128x128) hz2, View.ld_unit_zero (S := S128) hz1]
  obtain ⟨e50, e51, e00, e01, e10, e11, e20, e21, e30, e31, e40⟩ := idx_facts0 t
  refine funext fun (j : S5000x128.Idx) => ?_
  obtain ⟨p, q, rfl⟩ : ∃ (p : Fin 5000) (q : Fin 128), j = ix2 p q := ⟨j 0, j 1, eq_ix2 j⟩
  show k0_pay1 (F := Ideal) (iblk0 V c 0 t) (iblk0 V c 1 t) (iblk0 V c 2 t) (iblk0 V c 3 t) (iblk0 V c 4 t) (ix2 p q)
    = region0 (V c main_v24) (V c main_arg0) (V c main_v12) (V c main_v25) (V c main_arg3)
        (((cfg0.win 5).blk t).view.emb (ix2 p q))
  refine block0_eq (V c main_v24) (V c main_arg0) (V c main_v12) (V c main_v25) (V c main_arg3)
    (iblk0 V c 0 t) (iblk0 V c 1 t) (iblk0 V c 2 t) (iblk0 V c 3 t) (iblk0 V c 4 t)
    (((cfg0.win 5).blk t).view.emb (ix2 p q)) p q ?_ ?_ ?_ ?_ ?_
  · intro k
    show V c main_v24 (((cfg0.win 0).blk t).view.emb (ix2 p k)) = _
    refine congrArg (V c main_v24) (funext fun a => Fin.ext ?_)
    match a with
    | ⟨0, _⟩ => show win0_0.index t (0 : Fin 2) * 5000 + 1 * p.val = win0_5.index t (0 : Fin 2) * 5000 + 1 * p.val; omega
    | ⟨1, _⟩ => show win0_0.index t (1 : Fin 2) * 128 + 1 * k.val = k.val; omega
  · intro k
    show V c main_arg0 (((cfg0.win 1).blk t).view.emb (ix2 p k)) = _
    refine congrArg (V c main_arg0) (funext fun a => Fin.ext ?_)
    match a with
    | ⟨0, _⟩ => show win0_1.index t (0 : Fin 2) * 5000 + 1 * p.val = win0_5.index t (0 : Fin 2) * 5000 + 1 * p.val; omega
    | ⟨1, _⟩ => show win0_1.index t (1 : Fin 2) * 128 + 1 * k.val = k.val; omega
  · show V c main_v12 (((cfg0.win 2).blk t).view.emb (ix2 p (0 : Fin 1))) = _
    refine congrArg (V c main_v12) (funext fun a => Fin.ext ?_)
    match a with
    | ⟨0, _⟩ => show win0_2.index t (0 : Fin 2) * 5000 + 1 * p.val = win0_5.index t (0 : Fin 2) * 5000 + 1 * p.val; omega
    | ⟨1, _⟩ => show win0_2.index t (1 : Fin 2) * 1 + 1 * 0 = 0; omega
  · intro k
    show V c main_v25 (((cfg0.win 3).blk t).view.emb (ix2 k q)) = _
    refine congrArg (V c main_v25) (funext fun a => Fin.ext ?_)
    match a with
    | ⟨0, _⟩ => show win0_3.index t (0 : Fin 2) * 128 + 1 * k.val = k.val; omega
    | ⟨1, _⟩ => show win0_3.index t (1 : Fin 2) * 128 + 1 * q.val = win0_5.index t (1 : Fin 2) * 128 + 1 * q.val; omega
  · show V c main_arg3 (((cfg0.win 4).blk t).view.emb (ix1 q)) = _
    refine congrArg (V c main_arg3) (funext fun a => Fin.ext ?_)
    match a with
    | ⟨0, _⟩ => show win0_4.index t (0 : Fin 1) * 128 + 1 * q.val = win0_5.index t (1 : Fin 2) * 128 + 1 * q.val; omega

/-- An index of the result array is in point t's block iff each coordinate is in the block's range on its axis. -/
theorem mem_blk0 (t : Fin cfg0.N) (i : S50000x128.Idx) :
    i ∈ ((cfg0.win 5).blk t).view.set ↔ ∀ a : Fin 2, win0_5.index t a * S5000x128.size a ≤ (i a).val
      ∧ (i a).val < win0_5.index t a * S5000x128.size a + S5000x128.size a := by
  show i ∈ ((View.whole main_v26).slice (win0_5.rect t)).set ↔ _
  rw [View.set_slice_whole, Rect.mem_set_unit]
  exact Iff.rfl

/-- The ten blocks cover the result array: row r is in the block of point r / 5000. -/
theorem cover0 (i : S50000x128.Idx) :
    ∃ t : Fin cfg0.N, (cfg0.win 5).flush t = true ∧ i ∈ ((cfg0.win 5).blk t).view.set := by
  have hi0 : (i 0).val < 50000 := (i 0).isLt
  have hi1 : (i 1).val < 128 := (i 1).isLt
  have hN : cfg0.N = 10 := N_0
  have ht : (i 0).val / 5000 < cfg0.N := by rw [hN]; omega
  obtain ⟨e50, e51, -⟩ := idx_facts0 ⟨(i 0).val / 5000, ht⟩
  have e50' : win0_5.index ⟨(i 0).val / 5000, ht⟩ (0 : Fin 2) = (i 0).val / 5000 := e50
  refine ⟨⟨(i 0).val / 5000, ht⟩, flush0_5 _, ?_⟩
  rw [mem_blk0]
  intro a
  match a with
  | ⟨0, _⟩ =>
    show win0_5.index ⟨(i 0).val / 5000, ht⟩ (0 : Fin 2) * 5000 ≤ (i 0).val
      ∧ (i 0).val < win0_5.index ⟨(i 0).val / 5000, ht⟩ (0 : Fin 2) * 5000 + 5000
    omega
  | ⟨1, _⟩ =>
    show win0_5.index ⟨(i 0).val / 5000, ht⟩ (1 : Fin 2) * 128 ≤ (i 1).val
      ∧ (i 1).val < win0_5.index ⟨(i 0).val / 5000, ht⟩ (1 : Fin 2) * 128 + 128
    omega

/-- The region's result array after its ten points: the whole-array function of the arrays the region is entered with. -/
theorem final0 (V : (c : Dev nD) → (b : Ref sig .tc) → Buf (Elt Ideal) ((c : Thread nD τ).loc b)) (c : Dev nD) :
    (dat0 (F := Ideal) V c).arrAt 5 cfg0.N
      = region0 (V c main_v24) (V c main_arg0) (V c main_v12) (V c main_v25) (V c main_arg3) :=
  (dat0 (F := Ideal) V c).arrAt_eq_of_cover 5 _ (fun t _ => flushed0_eq V c t) cover0

/-! ## Region 1 (the second layer) -/

/-- The printed index maps, decided once over the grid: point t's block index is t along the rows for the three row-tiled
    inputs and the output, and zero everywhere else. -/
theorem idx_facts1 : ∀ t : Fin cfg1.N,
    win1_5.index t (0 : Fin 2) = t.val ∧ win1_5.index t (1 : Fin 2) = 0
    ∧ win1_0.index t (0 : Fin 2) = t.val ∧ win1_0.index t (1 : Fin 2) = 0
    ∧ win1_1.index t (0 : Fin 2) = t.val ∧ win1_1.index t (1 : Fin 2) = 0
    ∧ win1_2.index t (0 : Fin 2) = t.val ∧ win1_2.index t (1 : Fin 2) = 0
    ∧ win1_3.index t (0 : Fin 2) = 0 ∧ win1_3.index t (1 : Fin 2) = 0
    ∧ win1_4.index t (0 : Fin 1) = 0 :=
  (by decide +kernel : ∀ t : Fin grid1.N, _)

/-- What point t writes back is block t of the region's whole-array function of the arrays the region is entered with. -/
theorem flushed1_eq (V : (c : Dev nD) → (b : Ref sig .tc) → Buf (Elt Ideal) ((c : Thread nD τ).loc b)) (c : Dev nD)
    (t : Fin cfg1.N) :
    (dat1 (F := Ideal) V c).flushed 5 t = ((cfg1.win 5).blk t).view.read (Elt Ideal)
      (region1 (V c main_v38) (V c main_v26) (V c main_v12) (V c main_v39) (V c main_arg5)) := by
  show (cfg1.win 5).cut (grid1.coords t) ((dat1 V c).after 5 t) = _
  rw [after1_5]
  unfold out1_5
  rw [View.canon_unit_zero hz2]
  simp only [View.ld_unit_zero (S := S5000x128) hz2, View.ld_unit_zero (S := S5000x1) hz2,
    View.ld_unit_zero (S := S128x128) hz2, View.ld_unit_zero (S := S128) hz1]
  obtain ⟨e50, e51, e00, e01, e10, e11, e20, e21, e30, e31, e40⟩ := idx_facts1 t
  refine funext fun (j : S5000x128.Idx) => ?_
  obtain ⟨p, q, rfl⟩ : ∃ (p : Fin 5000) (q : Fin 128), j = ix2 p q := ⟨j 0, j 1, eq_ix2 j⟩
  show k1_pay1 (F := Ideal) (iblk1 V c 0 t) (iblk1 V c 1 t) (iblk1 V c 2 t) (iblk1 V c 3 t) (iblk1 V c 4 t) (ix2 p q)
    = region1 (V c main_v38) (V c main_v26) (V c main_v12) (V c main_v39) (V c main_arg5)
        (((cfg1.win 5).blk t).view.emb (ix2 p q))
  refine block1_eq (V c main_v38) (V c main_v26) (V c main_v12) (V c main_v39) (V c main_arg5)
    (iblk1 V c 0 t) (iblk1 V c 1 t) (iblk1 V c 2 t) (iblk1 V c 3 t) (iblk1 V c 4 t)
    (((cfg1.win 5).blk t).view.emb (ix2 p q)) p q ?_ ?_ ?_ ?_ ?_
  · intro k
    show V c main_v38 (((cfg1.win 0).blk t).view.emb (ix2 p k)) = _
    refine congrArg (V c main_v38) (funext fun a => Fin.ext ?_)
    match a with
    | ⟨0, _⟩ => show win1_0.index t (0 : Fin 2) * 5000 + 1 * p.val = win1_5.index t (0 : Fin 2) * 5000 + 1 * p.val; omega
    | ⟨1, _⟩ => show win1_0.index t (1 : Fin 2) * 128 + 1 * k.val = k.val; omega
  · intro k
    show V c main_v26 (((cfg1.win 1).blk t).view.emb (ix2 p k)) = _
    refine congrArg (V c main_v26) (funext fun a => Fin.ext ?_)
    match a with
    | ⟨0, _⟩ => show win1_1.index t (0 : Fin 2) * 5000 + 1 * p.val = win1_5.index t (0 : Fin 2) * 5000 + 1 * p.val; omega
    | ⟨1, _⟩ => show win1_1.index t (1 : Fin 2) * 128 + 1 * k.val = k.val; omega
  · show V c main_v12 (((cfg1.win 2).blk t).view.emb (ix2 p (0 : Fin 1))) = _
    refine congrArg (V c main_v12) (funext fun a => Fin.ext ?_)
    match a with
    | ⟨0, _⟩ => show win1_2.index t (0 : Fin 2) * 5000 + 1 * p.val = win1_5.index t (0 : Fin 2) * 5000 + 1 * p.val; omega
    | ⟨1, _⟩ => show win1_2.index t (1 : Fin 2) * 1 + 1 * 0 = 0; omega
  · intro k
    show V c main_v39 (((cfg1.win 3).blk t).view.emb (ix2 k q)) = _
    refine congrArg (V c main_v39) (funext fun a => Fin.ext ?_)
    match a with
    | ⟨0, _⟩ => show win1_3.index t (0 : Fin 2) * 128 + 1 * k.val = k.val; omega
    | ⟨1, _⟩ => show win1_3.index t (1 : Fin 2) * 128 + 1 * q.val = win1_5.index t (1 : Fin 2) * 128 + 1 * q.val; omega
  · show V c main_arg5 (((cfg1.win 4).blk t).view.emb (ix1 q)) = _
    refine congrArg (V c main_arg5) (funext fun a => Fin.ext ?_)
    match a with
    | ⟨0, _⟩ => show win1_4.index t (0 : Fin 1) * 128 + 1 * q.val = win1_5.index t (1 : Fin 2) * 128 + 1 * q.val; omega

/-- An index of the result array is in point t's block iff each coordinate is in the block's range on its axis. -/
theorem mem_blk1 (t : Fin cfg1.N) (i : S50000x128.Idx) :
    i ∈ ((cfg1.win 5).blk t).view.set ↔ ∀ a : Fin 2, win1_5.index t a * S5000x128.size a ≤ (i a).val
      ∧ (i a).val < win1_5.index t a * S5000x128.size a + S5000x128.size a := by
  show i ∈ ((View.whole main_v40).slice (win1_5.rect t)).set ↔ _
  rw [View.set_slice_whole, Rect.mem_set_unit]
  exact Iff.rfl

/-- The ten blocks cover the result array: row r is in the block of point r / 5000. -/
theorem cover1 (i : S50000x128.Idx) :
    ∃ t : Fin cfg1.N, (cfg1.win 5).flush t = true ∧ i ∈ ((cfg1.win 5).blk t).view.set := by
  have hi0 : (i 0).val < 50000 := (i 0).isLt
  have hi1 : (i 1).val < 128 := (i 1).isLt
  have hN : cfg1.N = 10 := N_1
  have ht : (i 0).val / 5000 < cfg1.N := by rw [hN]; omega
  obtain ⟨e50, e51, -⟩ := idx_facts1 ⟨(i 0).val / 5000, ht⟩
  have e50' : win1_5.index ⟨(i 0).val / 5000, ht⟩ (0 : Fin 2) = (i 0).val / 5000 := e50
  refine ⟨⟨(i 0).val / 5000, ht⟩, flush1_5 _, ?_⟩
  rw [mem_blk1]
  intro a
  match a with
  | ⟨0, _⟩ =>
    show win1_5.index ⟨(i 0).val / 5000, ht⟩ (0 : Fin 2) * 5000 ≤ (i 0).val
      ∧ (i 0).val < win1_5.index ⟨(i 0).val / 5000, ht⟩ (0 : Fin 2) * 5000 + 5000
    omega
  | ⟨1, _⟩ =>
    show win1_5.index ⟨(i 0).val / 5000, ht⟩ (1 : Fin 2) * 128 ≤ (i 1).val
      ∧ (i 1).val < win1_5.index ⟨(i 0).val / 5000, ht⟩ (1 : Fin 2) * 128 + 128
    omega

/-- The region's result array after its ten points: the whole-array function of the arrays the region is entered with. -/
theorem final1 (V : (c : Dev nD) → (b : Ref sig .tc) → Buf (Elt Ideal) ((c : Thread nD τ).loc b)) (c : Dev nD) :
    (dat1 (F := Ideal) V c).arrAt 5 cfg1.N
      = region1 (V c main_v38) (V c main_v26) (V c main_v12) (V c main_v39) (V c main_arg5) :=
  (dat1 (F := Ideal) V c).arrAt_eq_of_cover 5 _ (fun t _ => flushed1_eq V c t) cover1

end Cert.Sage.Kernel

end
-- ==== Proof.LibRecipCount.lean ====
/-
  Reciprocals and counts on the extended reals (general lemmas: any shapes).

  The ideal quotient x / d is x · d⁻¹ off d = 0 and an infinity by the sign of x at d = 0, so multiplying by a
  precomputed reciprocal 1 / d agrees with dividing by d exactly when d ≠ 0 — at infinite x and infinite d too, with
  no finiteness asked of anything. A typical such divisor is a count plus one: an accumulating scatter of ones into
  zeros holds, at each position, zero plus a sum of ones, which is nonnegative, so the count plus one is at least one.
-/
import Idealize.ShloMosaic.PureOps.Ideal
import Idealize.ShloMosaic.PureOps.Ideal.Laws
import Idealize.ShloMosaic.Lib.Pipeline.Value
import Idealize.ShloMosaic.Lib.ValueIdx

noncomputable section

open scoped BigOperators

namespace Cert.Lib.RecipCount

open Idealize.ShloMosaic Idealize.ShloMosaic.ValueIdx

/-- `Cert.Lib.RecipCount.ofBits_one`: the f32 pattern of 1.0 denotes the real number one. -/
theorem ofBits_one : Ideal.ofBits .f32 0x3F800000#32 = 1 := by
  simp [Ideal.ofBits, Ideal.ieee, -EReal.coe_mul]; norm_num

/-- `Cert.Lib.RecipCount.mul_recip_eq_div`: off zero, the product with the reciprocal is the quotient — at the
    infinities too. -/
theorem mul_recip_eq_div (x d : EReal) (hd : d ≠ 0) : x * Ideal.div 1 d = Ideal.div x d := by
  rw [Ideal.div, Ideal.div, if_neg hd, if_neg hd, one_mul]

/-- `Cert.Lib.RecipCount.mul_recip_one`: the same with the reciprocal's numerator spelt as the f32 pattern of 1.0. -/
theorem mul_recip_one (x d : EReal) (hd : d ≠ 0) :
    x * Ideal.div (Ideal.ofBits .f32 0x3F800000#32) d = Ideal.div x d := by
  rw [ofBits_one]; exact mul_recip_eq_div x d hd

/-- `Cert.Lib.RecipCount.count_succ_ne_zero`: a sum of ones added to zero, plus one, is not zero: it is at least one. -/
theorem count_succ_ne_zero {ι : Type} (s : Finset ι) (z : EReal) (u : ι → EReal) (hz : z = 0) (hu : ∀ j, u j = 1) :
    z + ∑ j ∈ s, u j + 1 ≠ 0 := by
  have h0 : (0 : EReal) ≤ z + ∑ j ∈ s, u j := by
    rw [hz, zero_add]
    exact Finset.sum_nonneg fun j _ => by rw [hu j]; exact zero_le_one
  have h1 : (1 : EReal) ≤ z + ∑ j ∈ s, u j + 1 := by
    have := add_le_add_left h0 (1 : EReal)
    rwa [zero_add] at this
  exact (lt_of_lt_of_le zero_lt_one h1).ne'

/-- `Cert.Lib.RecipCount.scatter_count_succ_ne_zero`: an accumulating scatter of ones into zeros, plus one, is never
    zero — for the ideal instance's scatter-add, any dimension numbers and any index table. -/
theorem scatter_count_succ_ne_zero {s si su : Shape} (d : ScatterDims s si su) {w : Nat} (x : s.Idx → EReal) (idx : IVec si w)
    (upd : su.Idx → EReal) (hx : ∀ i, x i = Ideal.ofBits .f32 0x00000000#32)
    (hu : ∀ j, upd j = Ideal.ofBits .f32 0x3F800000#32) (i : s.Idx) :
    Ideal.hostScatterAdd d x idx upd i + Ideal.ofBits .f32 0x3F800000#32 ≠ 0 := by
  unfold Ideal.hostScatterAdd
  rw [ofBits_one]
  exact count_succ_ne_zero _ _ _ ((hx i).trans Ideal.ofBits_zero_f32) fun j => (hu j).trans ofBits_one

/-- `Cert.Lib.RecipCount.host_count_succ_ne_zero`: the same for the host operation as a program spells it
    (`Host.scatterAdd` at the ideal values); stated over variables, so that applying it to a long term unifies by name
    and never unfolds the sum. -/
theorem host_count_succ_ne_zero {s si su : Shape} (d : ScatterDims s si su) {w : Nat} (x : FVec Ideal s .f32) (idx : IVec si w)
    (upd : FVec Ideal su .f32) (hx : ∀ i, x i = Ideal.ofBits .f32 0x00000000#32)
    (hu : ∀ j, upd j = Ideal.ofBits .f32 0x3F800000#32) (i : s.Idx) :
    Host.scatterAdd d x idx upd i + Ideal.ofBits .f32 0x3F800000#32 ≠ 0 :=
  scatter_count_succ_ne_zero d x idx upd hx hu i

/-- `Cert.Lib.RecipCount.bcast_scalar_at`: a scalar broadcast to a vector of n entries reads the scalar everywhere. -/
theorem bcast_scalar_at {n : Nat} {α : Type} (h : (⟨0, ![]⟩ : Shape).BroadcastsInDim ⟨1, ![n]⟩ (![] : Fin 0 → Fin 1))
    (v : (⟨0, ![]⟩ : Shape).Idx → α) (i : (⟨1, ![n]⟩ : Shape).Idx) :
    broadcastInDim ⟨1, ![n]⟩ (![] : Fin 0 → Fin 1) h v i = v ix0 :=
  broadcastInDim_apply _ h v i ix0 fun ax => ax.elim0

end Cert.Lib.RecipCount

end
-- ==== Proof.Spec.lean ====
/-
  One graph-convolution layer as a function of whole arrays.

  For node features X : [50000, 128], their neighbourhood sums A : [50000, 128], in-degrees dg : [50000], a weight
  matrix W : [128, 128] and a bias b : [128], the layer's value at node r and output feature q is
      ∑ k, ((A[r,k] + X[r,k]) / (dg[r] + 1)) · W[q,k] + b[q]
  on the extended reals, followed or not by the rectifier max(·, 0).

  One spelling divides each row by dg[r] + 1; the other multiplies it by the reciprocal 1 / (dg[r] + 1) computed
  beforehand. On the extended reals the quotient x / d is x · d⁻¹ only off d = 0 (at zero it is an infinity by the
  sign of x), so x · (1 / d) = x / d needs d ≠ 0 and nothing else: no entry has to be finite. The divisor here is a
  count of edges plus one — a sum of ones added to zero, plus one — hence at least one (both facts are in
  Proof/LibRecipCount.lean).
-/
import Idealize.ShloMosaic.PureOps.Ideal
import Idealize.ShloMosaic.PureOps.Ideal.Laws
import Idealize.ShloMosaic.Lib.ValueIdx
import proofs.«134690_j82205674045926_2_alg».proof.Proof.LibRecipCount

noncomputable section

open scoped BigOperators

namespace Cert.Sage

open Idealize.ShloMosaic Idealize.ShloMosaic.ValueIdx

/-- The layer before the rectifier, at node r and output feature q. -/
def affineAt (A X : FVec Ideal ⟨2, ![50000, 128]⟩ .f32) (dg : FVec Ideal ⟨1, ![50000]⟩ .f32)
    (W : FVec Ideal ⟨2, ![128, 128]⟩ .f32) (b : FVec Ideal ⟨1, ![128]⟩ .f32) (r : Fin 50000) (q : Fin 128) : Ideal .f32 :=
  (∑ k : Fin 128, Ideal.div (A (ix2 r k) + X (ix2 r k)) (dg (ix1 r) + Ideal.ofBits .f32 0x3F800000#32) * W (ix2 q k))
    + b (ix1 q)

/-- The layer without a rectifier, as an array. -/
def affine (A X : FVec Ideal ⟨2, ![50000, 128]⟩ .f32) (dg : FVec Ideal ⟨1, ![50000]⟩ .f32)
    (W : FVec Ideal ⟨2, ![128, 128]⟩ .f32) (b : FVec Ideal ⟨1, ![128]⟩ .f32) : FVec Ideal ⟨2, ![50000, 128]⟩ .f32 :=
  fun i => affineAt A X dg W b (i 0) (i 1)

/-- The layer with the rectifier, as an array. -/
def rectified (A X : FVec Ideal ⟨2, ![50000, 128]⟩ .f32) (dg : FVec Ideal ⟨1, ![50000]⟩ .f32)
    (W : FVec Ideal ⟨2, ![128, 128]⟩ .f32) (b : FVec Ideal ⟨1, ![128]⟩ .f32) : FVec Ideal ⟨2, ![50000, 128]⟩ .f32 :=
  fun i => max (affineAt A X dg W b (i 0) (i 1)) (Ideal.ofBits .f32 0x00000000#32)

theorem affine_ix2 (A X : FVec Ideal ⟨2, ![50000, 128]⟩ .f32) (dg : FVec Ideal ⟨1, ![50000]⟩ .f32)
    (W : FVec Ideal ⟨2, ![128, 128]⟩ .f32) (b : FVec Ideal ⟨1, ![128]⟩ .f32) (r : Fin 50000) (q : Fin 128) :
    affine A X dg W b (ix2 r q) = affineAt A X dg W b r q := rfl

theorem rectified_ix2 (A X : FVec Ideal ⟨2, ![50000, 128]⟩ .f32) (dg : FVec Ideal ⟨1, ![50000]⟩ .f32)
    (W : FVec Ideal ⟨2, ![128, 128]⟩ .f32) (b : FVec Ideal ⟨1, ![128]⟩ .f32) (r : Fin 50000) (q : Fin 128) :
    rectified A X dg W b (ix2 r q) = max (affineAt A X dg W b r q) (Ideal.ofBits .f32 0x00000000#32) := rfl

end Cert.Sage

end
-- ==== Proof.KernelLaw.lean ====
/-
  The kernel's regions compute the specification's layer.

  A region multiplies each row of A + X by the reciprocal 1 / (dg[r] + 1), kept as a column, and contracts with the
  transposed weights; the specification divides by dg[r] + 1 and contracts with the weights at the swapped index. With
  dg[r] + 1 ≠ 0 the product with the reciprocal is the quotient, term by term of the sum, so the two arrays agree at
  every entry; no finiteness of the entries is used.
-/
import proofs.«134690_j82205674045926_2_alg».proof.Proof.KernelBlocks
import proofs.«134690_j82205674045926_2_alg».proof.Proof.LibRecipCount
import proofs.«134690_j82205674045926_2_alg».proof.Proof.Spec

noncomputable section

open scoped BigOperators

namespace Cert.Sage.Kernel

open Cert.KernelIdeal Idealize.ShloMosaic Idealize.ShloMosaic.ValueIdx

/-- At one entry: the region's value is the layer's, term by term of the contraction. -/
theorem regionAt_eq (A X : FVec Ideal S50000x128 .f32) (dg : FVec Ideal S50000 .f32) (W : FVec Ideal S128x128 .f32)
    (b : FVec Ideal S128 .f32) (inv : FVec Ideal S50000x1 .f32) (WT : FVec Ideal S128x128 .f32)
    (hinv : ∀ r : Fin 50000, inv (ix2 r (0 : Fin 1))
      = Ideal.div (Ideal.ofBits .f32 0x3F800000#32) (dg (ix1 r) + Ideal.ofBits .f32 0x3F800000#32))
    (hWT : ∀ k q : Fin 128, WT (ix2 k q) = W (ix2 q k))
    (hd : ∀ r : Fin 50000, dg (ix1 r) + Ideal.ofBits .f32 0x3F800000#32 ≠ 0) (r : Fin 50000) (q : Fin 128) :
    regionAt A X inv WT b r q = Cert.Sage.affineAt A X dg W b r q := by
  unfold regionAt Cert.Sage.affineAt
  refine congrArg (fun s => s + b (ix1 q)) (Finset.sum_congr rfl fun k _ => ?_)
  rw [hinv, hWT, Cert.Lib.RecipCount.mul_recip_one _ _ (hd r)]

/-- The first region's array is the rectified layer, when the column holds the reciprocals of the degrees plus one, the
    weights are read transposed, and no degree plus one is zero. -/
theorem region0_eq (A X : FVec Ideal S50000x128 .f32) (dg : FVec Ideal S50000 .f32) (W : FVec Ideal S128x128 .f32)
    (b : FVec Ideal S128 .f32) (inv : FVec Ideal S50000x1 .f32) (WT : FVec Ideal S128x128 .f32)
    (hinv : ∀ r : Fin 50000, inv (ix2 r (0 : Fin 1))
      = Ideal.div (Ideal.ofBits .f32 0x3F800000#32) (dg (ix1 r) + Ideal.ofBits .f32 0x3F800000#32))
    (hWT : ∀ k q : Fin 128, WT (ix2 k q) = W (ix2 q k))
    (hd : ∀ r : Fin 50000, dg (ix1 r) + Ideal.ofBits .f32 0x3F800000#32 ≠ 0) :
    region0 A X inv WT b = Cert.Sage.rectified A X dg W b := by
  funext i
  obtain ⟨r, q, rfl⟩ : ∃ (r : Fin 50000) (q : Fin 128), i = ix2 r q := ⟨i 0, i 1, eq_ix2 i⟩
  show max (regionAt A X inv WT b r q) (Ideal.ofBits .f32 0x00000000#32)
    = max (Cert.Sage.affineAt A X dg W b r q) (Ideal.ofBits .f32 0x00000000#32)
  rw [regionAt_eq A X dg W b inv WT hinv hWT hd r q]

/-- The second region's array is the layer without a rectifier, under the same three conditions. -/
theorem region1_eq (A X : FVec Ideal S50000x128 .f32) (dg : FVec Ideal S50000 .f32) (W : FVec Ideal S128x128 .f32)
    (b : FVec Ideal S128 .f32) (inv : FVec Ideal S50000x1 .f32) (WT : FVec Ideal S128x128 .f32)
    (hinv : ∀ r : Fin 50000, inv (ix2 r (0 : Fin 1))
      = Ideal.div (Ideal.ofBits .f32 0x3F800000#32) (dg (ix1 r) + Ideal.ofBits .f32 0x3F800000#32))
    (hWT : ∀ k q : Fin 128, WT (ix2 k q) = W (ix2 q k))
    (hd : ∀ r : Fin 50000, dg (ix1 r) + Ideal.ofBits .f32 0x3F800000#32 ≠ 0) :
    region1 A X inv WT b = Cert.Sage.affine A X dg W b := by
  funext i
  obtain ⟨r, q, rfl⟩ : ∃ (r : Fin 50000) (q : Fin 128), i = ix2 r q := ⟨i 0, i 1, eq_ix2 i⟩
  show regionAt A X inv WT b r q = Cert.Sage.affineAt A X dg W b r q
  exact regionAt_eq A X dg W b inv WT hinv hWT hd r q

end Cert.Sage.Kernel

end
-- ==== Proof.RefValue.lean ====
/-
  The reference program's two layers, read one operation at a time, are the graph-convolution layer of the
  specification module.

  The reference forms, for node features X, the neighbourhood sums A (a gather followed by an accumulating scatter) and
  the in-degrees dg (an accumulating scatter of ones), then
      ((A + X) / broadcast(dg + 1)) · Wᵀ + broadcast(b),
  and, after the first layer only, the maximum with a broadcast zero. At node r and output feature q this is
      ∑ k, ((A[r,k] + X[r,k]) / (dg[r] + 1)) · W[q,k] + b[q]:
  the matrix product contracts the second axis of the quotient with the first axis of the transposed weights, the
  transposed weights at (k, q) are the weights at (q, k), the divisor broadcast along the feature axis reads dg + 1 at
  (r, 0), and the bias broadcast along the node axis reads b at q. The gather and the scatters stay opaque: only their
  results A and dg appear on both sides.
-/
import proofs.«134690_j82205674045926_2_alg».proof.Proof.Gen.ReferenceIdeal.Read
import proofs.«134690_j82205674045926_2_alg».proof.Proof.Spec
import Idealize.ShloMosaic.Lib.ValueIdx
import Idealize.ShloMosaic.PureOps.Ideal.Laws
import Idealize.ShloMosaic.Lib.Pipeline.Value

noncomputable section

open scoped BigOperators

namespace Cert.Sage.Ref

open Cert.ReferenceIdeal Cert.ReferenceIdeal.Gen Cert.ReferenceIdeal.Read Idealize.ShloMosaic Idealize.ShloMosaic.ValueIdx

/-! ## Where the layout operations read, in coordinates -/

/-- The matrix product's left operand is read at row r, contracted position k. -/
theorem lidx25 (r : Fin 50000) (q k : Fin 128) : lidx_main_v25 (ix2 r q) k = ix2 r k :=
  funext fun a => Fin.ext (by match a with | ⟨0, _⟩ => rfl | ⟨1, _⟩ => rfl)

/-- The matrix product's right operand is read at contracted position k, column q. -/
theorem ridx25 (r : Fin 50000) (q k : Fin 128) : ridx_main_v25 (ix2 r q) k = ix2 k q :=
  funext fun a => Fin.ext (by match a with | ⟨0, _⟩ => rfl | ⟨1, _⟩ => rfl)

/-- The divisor broadcast along the feature axis reads its column vector at (r, 0). -/
theorem idx22 (r : Fin 50000) (k : Fin 128) : idx_main_v22 (ix2 r k) = ix2 r (0 : Fin 1) :=
  funext fun a => Fin.ext (by match a with | ⟨0, _⟩ => rfl | ⟨1, _⟩ => rfl)

/-- The column vector at (r, 0) reads the degree vector at r. -/
theorem idx19 (r : Fin 50000) : idx_main_v19 (ix2 r (0 : Fin 1)) = ix1 r :=
  funext fun a => Fin.ext (by match a with | ⟨0, _⟩ => rfl)

/-- The transposed weights at (k, q) are the weights at (q, k). -/
theorem idx24 (q k : Fin 128) : idx_main_v24 (ix2 k q) = ix2 q k :=
  funext fun a => Fin.ext (by match a with | ⟨0, _⟩ => rfl | ⟨1, _⟩ => rfl)

/-- The bias broadcast along the node axis reads its row vector at (0, q). -/
theorem idx27 (r : Fin 50000) (q : Fin 128) : idx_main_v27 (ix2 r q) = ix2 (0 : Fin 1) q :=
  funext fun a => Fin.ext (by match a with | ⟨0, _⟩ => rfl | ⟨1, _⟩ => rfl)

/-- The row vector at (0, q) reads the bias at q. -/
theorem idx26 (q : Fin 128) : idx_main_v26 (ix2 (0 : Fin 1) q) = ix1 q :=
  funext fun a => Fin.ext (by match a with | ⟨0, _⟩ => rfl)

/-! ## The first layer -/

/-- One term of the first layer's contraction. -/
theorem term1 (x0 : (⟨S50000x128, .f32⟩ : BufTy).Contents (Elt Ideal)) (x1 : (⟨S2x800000, .i32⟩ : BufTy).Contents (Elt Ideal)) (x2 : (⟨S128x128, .f32⟩ : BufTy).Contents (Elt Ideal)) (r : Fin 50000) (q k : Fin 128) :
    (val_main_v23 (F := Ideal) x0 x1) (lidx_main_v25 (ix2 r q) k) * (val_main_v24 (F := Ideal) x2) (ridx_main_v25 (ix2 r q) k)
      = Ideal.div (val_main_v13 (F := Ideal) x0 x1 (ix2 r k) + x0 (ix2 r k))
          (val_main_v17 (F := Ideal) x1 (ix1 r) + Ideal.ofBits .f32 0x3F800000#32) * x2 (ix2 q k) := by
  rw [lidx25, ridx25, val_main_v23_apply, val_main_v18_apply, val_main_v22_apply, idx22, val_main_v21_apply,
    val_main_v19_apply, idx19, val_main_v20_apply, val_main_cst_3_apply, val_main_v24_apply, idx24]
  rfl

/-- The first layer at node r and output feature q. -/
theorem layer1At (x0 : (⟨S50000x128, .f32⟩ : BufTy).Contents (Elt Ideal)) (x1 : (⟨S2x800000, .i32⟩ : BufTy).Contents (Elt Ideal)) (x2 : (⟨S128x128, .f32⟩ : BufTy).Contents (Elt Ideal)) (x3 : (⟨S128, .f32⟩ : BufTy).Contents (Elt Ideal)) (r : Fin 50000) (q : Fin 128) :
    val_main_v29 (F := Ideal) x0 x1 x2 x3 (ix2 r q)
      = max (Cert.Sage.affineAt (val_main_v13 (F := Ideal) x0 x1) x0 (val_main_v17 (F := Ideal) x1) x2 x3 r q)
          (Ideal.ofBits .f32 0x00000000#32) := by
  rw [val_main_v29_apply, val_main_v28_apply, val_main_v25_apply, val_main_v27_apply, idx27, val_main_v26_apply, idx26,
    val_main_call0_v0_apply, val_main_call0_cst_apply, Finset.sum_congr rfl fun k _ => term1 x0 x1 x2 r q k]
  rfl

/-- The reference's first layer is the rectified graph-convolution layer of the node features, their neighbourhood
    sums and the in-degrees. -/
theorem layer1 (x0 : (⟨S50000x128, .f32⟩ : BufTy).Contents (Elt Ideal)) (x1 : (⟨S2x800000, .i32⟩ : BufTy).Contents (Elt Ideal)) (x2 : (⟨S128x128, .f32⟩ : BufTy).Contents (Elt Ideal)) (x3 : (⟨S128, .f32⟩ : BufTy).Contents (Elt Ideal)) :
    val_main_v29 (F := Ideal) x0 x1 x2 x3
      = Cert.Sage.rectified (val_main_v13 (F := Ideal) x0 x1) x0 (val_main_v17 (F := Ideal) x1) x2 x3 := by
  funext i
  obtain ⟨r, q, rfl⟩ : ∃ (r : Fin 50000) (q : Fin 128), i = ix2 r q := ⟨i 0, i 1, eq_ix2 i⟩
  rw [Cert.Sage.rectified_ix2]
  exact layer1At x0 x1 x2 x3 r q

/-! ## The second layer -/

/-- The second matrix product's left operand is read at row r, contracted position k. -/
theorem lidx51 (r : Fin 50000) (q k : Fin 128) : lidx_main_v51 (ix2 r q) k = ix2 r k :=
  funext fun a => Fin.ext (by match a with | ⟨0, _⟩ => rfl | ⟨1, _⟩ => rfl)

/-- The second matrix product's right operand is read at contracted position k, column q. -/
theorem ridx51 (r : Fin 50000) (q k : Fin 128) : ridx_main_v51 (ix2 r q) k = ix2 k q :=
  funext fun a => Fin.ext (by match a with | ⟨0, _⟩ => rfl | ⟨1, _⟩ => rfl)

/-- The second divisor broadcast along the feature axis reads its column vector at (r, 0). -/
theorem idx48 (r : Fin 50000) (k : Fin 128) : idx_main_v48 (ix2 r k) = ix2 r (0 : Fin 1) :=
  funext fun a => Fin.ext (by match a with | ⟨0, _⟩ => rfl | ⟨1, _⟩ => rfl)

/-- The second column vector at (r, 0) reads the degree vector at r. -/
theorem idx45 (r : Fin 50000) : idx_main_v45 (ix2 r (0 : Fin 1)) = ix1 r :=
  funext fun a => Fin.ext (by match a with | ⟨0, _⟩ => rfl)

/-- The second transposed weights at (k, q) are the weights at (q, k). -/
theorem idx50 (q k : Fin 128) : idx_main_v50 (ix2 k q) = ix2 q k :=
  funext fun a => Fin.ext (by match a with | ⟨0, _⟩ => rfl | ⟨1, _⟩ => rfl)

/-- The second bias broadcast along the node axis reads its row vector at (0, q). -/
theorem idx53 (r : Fin 50000) (q : Fin 128) : idx_main_v53 (ix2 r q) = ix2 (0 : Fin 1) q :=
  funext fun a => Fin.ext (by match a with | ⟨0, _⟩ => rfl | ⟨1, _⟩ => rfl)

/-- The second row vector at (0, q) reads the bias at q. -/
theorem idx52 (q : Fin 128) : idx_main_v52 (ix2 (0 : Fin 1) q) = ix1 q :=
  funext fun a => Fin.ext (by match a with | ⟨0, _⟩ => rfl)

/-- One term of the second layer's contraction. -/
theorem term2 (x0 : (⟨S50000x128, .f32⟩ : BufTy).Contents (Elt Ideal)) (x1 : (⟨S2x800000, .i32⟩ : BufTy).Contents (Elt Ideal)) (x2 : (⟨S128x128, .f32⟩ : BufTy).Contents (Elt Ideal)) (x3 : (⟨S128, .f32⟩ : BufTy).Contents (Elt Ideal)) (x4 : (⟨S128x128, .f32⟩ : BufTy).Contents (Elt Ideal)) (r : Fin 50000) (q k : Fin 128) :
    (val_main_v49 (F := Ideal) x0 x1 x2 x3) (lidx_main_v51 (ix2 r q) k) * (val_main_v50 (F := Ideal) x4) (ridx_main_v51 (ix2 r q) k)
      = Ideal.div (val_main_v39 (F := Ideal) x0 x1 x2 x3 (ix2 r k) + val_main_v29 (F := Ideal) x0 x1 x2 x3 (ix2 r k))
          (val_main_v43 (F := Ideal) x1 (ix1 r) + Ideal.ofBits .f32 0x3F800000#32) * x4 (ix2 q k) := by
  rw [lidx51, ridx51, val_main_v49_apply, val_main_v44_apply, val_main_v48_apply, idx48, val_main_v47_apply,
    val_main_v45_apply, idx45, val_main_v46_apply, val_main_cst_9_apply, val_main_v50_apply, idx50]
  rfl

/-- The second layer at node r and output feature q. -/
theorem layer2At (x0 : (⟨S50000x128, .f32⟩ : BufTy).Contents (Elt Ideal)) (x1 : (⟨S2x800000, .i32⟩ : BufTy).Contents (Elt Ideal)) (x2 : (⟨S128x128, .f32⟩ : BufTy).Contents (Elt Ideal)) (x3 : (⟨S128, .f32⟩ : BufTy).Contents (Elt Ideal)) (x4 : (⟨S128x128, .f32⟩ : BufTy).Contents (Elt Ideal)) (x5 : (⟨S128, .f32⟩ : BufTy).Contents (Elt Ideal)) (r : Fin 50000) (q : Fin 128) :
    val_main_v54 (F := Ideal) x0 x1 x2 x3 x4 x5 (ix2 r q)
      = Cert.Sage.affineAt (val_main_v39 (F := Ideal) x0 x1 x2 x3) (val_main_v29 (F := Ideal) x0 x1 x2 x3)
          (val_main_v43 (F := Ideal) x1) x4 x5 r q := by
  rw [val_main_v54_apply, val_main_v51_apply, val_main_v53_apply, idx53, val_main_v52_apply, idx52,
    Finset.sum_congr rfl fun k _ => term2 x0 x1 x2 x3 x4 r q k]
  rfl

/-- The reference's second layer is the graph-convolution layer, without a rectifier, of the first layer's output, its
    neighbourhood sums and the in-degrees. -/
theorem layer2 (x0 : (⟨S50000x128, .f32⟩ : BufTy).Contents (Elt Ideal)) (x1 : (⟨S2x800000, .i32⟩ : BufTy).Contents (Elt Ideal)) (x2 : (⟨S128x128, .f32⟩ : BufTy).Contents (Elt Ideal)) (x3 : (⟨S128, .f32⟩ : BufTy).Contents (Elt Ideal)) (x4 : (⟨S128x128, .f32⟩ : BufTy).Contents (Elt Ideal)) (x5 : (⟨S128, .f32⟩ : BufTy).Contents (Elt Ideal)) :
    val_main_v54 (F := Ideal) x0 x1 x2 x3 x4 x5
      = Cert.Sage.affine (val_main_v39 (F := Ideal) x0 x1 x2 x3) (val_main_v29 (F := Ideal) x0 x1 x2 x3)
          (val_main_v43 (F := Ideal) x1) x4 x5 := by
  funext i
  obtain ⟨r, q, rfl⟩ : ∃ (r : Fin 50000) (q : Fin 128), i = ix2 r q := ⟨i 0, i 1, eq_ix2 i⟩
  rw [Cert.Sage.affine_ix2]
  exact layer2At x0 x1 x2 x3 x4 x5 r q

end Cert.Sage.Ref

end
-- ==== Proof.KernelValue.lean ====
/-
  The kernel program's result, as a function of its arguments.

  Before the first region the host forms the neighbourhood sums of the features (a gather along the source nodes, taken
  from a copy narrowed to bf16 and widened back — the identity at the ideal values — and an accumulating scatter along
  the destination nodes), the in-degrees (an accumulating scatter of ones), the column of reciprocals 1 / (degree + 1)
  and the transposed weights; between the regions it forms the neighbourhood sums of the first region's output and the
  second transposed weights. These are the very operations the reference applies to the same arrays, so each region is
  entered with the reference's own intermediate arrays. A region then computes the layer of the specification: the
  product with the reciprocal is the quotient, because a degree plus one is never zero. The second region's output —
  the program's result — is therefore the reference's result term.
-/
import proofs.«134690_j82205674045926_2_alg».proof.Proof.Gen.KernelIdeal.Frame
import proofs.«134690_j82205674045926_2_alg».proof.Proof.Gen.ReferenceIdeal.Read
import proofs.«134690_j82205674045926_2_alg».proof.Proof.KernelRun
import proofs.«134690_j82205674045926_2_alg».proof.Proof.KernelBlocks
import proofs.«134690_j82205674045926_2_alg».proof.Proof.LibRecipCount
import proofs.«134690_j82205674045926_2_alg».proof.Proof.KernelLaw
import proofs.«134690_j82205674045926_2_alg».proof.Proof.RefValue
import proofs.«134690_j82205674045926_2_alg».proof.Proof.LibColumn
import Idealize.ShloMosaic.Lib.StableHlo.Run
import Idealize.ShloMosaic.Lib.Pipeline.Value
import Idealize.ShloMosaic.Lib.ValueIdx

set_option maxRecDepth 16384

noncomputable section

namespace Cert.Sage.Kernel

open Cert.KernelIdeal Cert.KernelIdeal.Gen Idealize.ShloMosaic Idealize.ShloMosaic.TcCoe Idealize.SL.Sem
open Idealize.ShloMosaic.StableHlo Idealize.ShloMosaic.ValueIdx
open Cert.ReferenceIdeal.Read (val_main_v1 val_main_v3 val_main_v13 val_main_v14 val_main_v15 val_main_v17 val_main_v24
  val_main_v29 val_main_v39 val_main_v43 val_main_v50 val_main_v54 val_main_v14_apply val_main_v15_apply
  val_main_v24_apply val_main_v50_apply)

variable (m : (ℓ : Loc nD τ sig) → Buf (Elt Ideal) ℓ) (ρ : Dev nD → PrngReg)

/-! ## The reciprocal-degree column -/

/-- The column of reciprocals 1 / (dg + 1) of a degree vector dg, in the host's spelling: ones divided by dg plus ones,
    viewed as a column. -/
def invOf (dg : FVec Ideal S50000 .f32) : FVec Ideal S50000x1 .f32 :=
  shapeCast S50000x1
    (Host.divf (broadcastInDim S50000 ![] Facts₀.bcast_S_S50000 (constant (F := Ideal) S_ .f32 0x3F800000#32))
      (addf dg (broadcastInDim S50000 ![] Facts₀.bcast_S_S50000 (constant (F := Ideal) S_ .f32 0x3F800000#32))))
    Facts₀.shapeCasts_S50000_S50000x1

/-- That column at node r is the reciprocal of the node's degree plus one. -/
theorem invOf_at (dg : FVec Ideal S50000 .f32) (r : Fin 50000) :
    invOf dg (ix2 r (0 : Fin 1)) = Ideal.div (Ideal.ofBits .f32 0x3F800000#32)
      (dg (ix1 r) + Ideal.ofBits .f32 0x3F800000#32) := by
  unfold invOf
  rw [Cert.Lib.Column.shapeCast_a_a1_apply]
  have hdiv : ∀ (a b : FVec Ideal S50000 .f32) (i : S50000.Idx), Host.divf a b i = Ideal.div (a i) (b i) :=
    fun _ _ _ => rfl
  rw [hdiv, addf_apply, Cert.Lib.RecipCount.bcast_scalar_at, constant_apply]

/-- The column the host hands both regions: 1 / (degree + 1) per node, the degrees being the reference's. -/
def invCol (e : (⟨S2x800000, .i32⟩ : BufTy).Contents (Elt Ideal)) : FVec Ideal S50000x1 .f32 :=
  invOf (val_main_v17 (F := Ideal) e)

/-- The column at node r is the reciprocal of that node's degree plus one. -/
theorem invCol_at (e : (⟨S2x800000, .i32⟩ : BufTy).Contents (Elt Ideal)) (r : Fin 50000) :
    invCol e (ix2 r (0 : Fin 1)) = Ideal.div (Ideal.ofBits .f32 0x3F800000#32)
      (val_main_v17 (F := Ideal) e (ix1 r) + Ideal.ofBits .f32 0x3F800000#32) :=
  invOf_at (val_main_v17 (F := Ideal) e) r

/-- A degree plus one is never zero: the degrees are an accumulating scatter of ones into zeros. -/
theorem degree_ne_zero (e : (⟨S2x800000, .i32⟩ : BufTy).Contents (Elt Ideal)) (r : Fin 50000) :
    val_main_v17 (F := Ideal) e (ix1 r) + Ideal.ofBits .f32 0x3F800000#32 ≠ 0 := by
  unfold val_main_v17
  refine Cert.Lib.RecipCount.host_count_succ_ne_zero _ _ _ _ (fun i => ?_) (fun j => ?_) (ix1 r)
  · rw [val_main_v15_apply]; rfl
  · rw [val_main_v14_apply]; rfl

/-! ## The first region's operands -/

set_option maxHeartbeats 8000000 in
/-- The neighbourhood sums of the features are the reference's. -/
theorem V1_v24 (c : Dev nD) : V1 m ρ c main_v24 = val_main_v13 (F := Ideal) (m ((c : Thread nD τ).loc main_arg0)) (m ((c : Thread nD τ).loc main_arg1)) := by
  show StableHlo.after hostOps0 (W0 m ρ c) (Proc.devRef .tc main_v24) = _
  after_results_simp <;> rfl

set_option maxHeartbeats 8000000 in
theorem V1_arg0 (c : Dev nD) : V1 m ρ c main_arg0 = (m ((c : Thread nD τ).loc main_arg0)) := by
  show StableHlo.after hostOps0 (W0 m ρ c) (Proc.devRef .tc main_arg0) = _
  after_results_simp <;> rfl

set_option maxHeartbeats 8000000 in
theorem V1_v12 (c : Dev nD) : V1 m ρ c main_v12 = invCol (m ((c : Thread nD τ).loc main_arg1)) := by
  show StableHlo.after hostOps0 (W0 m ρ c) (Proc.devRef .tc main_v12) = _
  after_results_simp <;> rfl

set_option maxHeartbeats 8000000 in
/-- The first transposed weights are the reference's. -/
theorem V1_v25 (c : Dev nD) : V1 m ρ c main_v25 = val_main_v24 (F := Ideal) (m ((c : Thread nD τ).loc main_arg2)) := by
  show StableHlo.after hostOps0 (W0 m ρ c) (Proc.devRef .tc main_v25) = _
  after_results_simp <;> rfl

set_option maxHeartbeats 8000000 in
theorem V1_arg3 (c : Dev nD) : V1 m ρ c main_arg3 = (m ((c : Thread nD τ).loc main_arg3)) := by
  show StableHlo.after hostOps0 (W0 m ρ c) (Proc.devRef .tc main_arg3) = _
  after_results_simp <;> rfl

/-! ## What the first region leaves, and what passes it by -/

/-- The first region's output is the reference's first layer. -/
theorem W2_v26 (c : Dev nD) :
    W2 m ρ c (Proc.devRef .tc main_v26) = val_main_v29 (F := Ideal) (m ((c : Thread nD τ).loc main_arg0)) (m ((c : Thread nD τ).loc main_arg1)) (m ((c : Thread nD τ).loc main_arg2)) (m ((c : Thread nD τ).loc main_arg3)) := by
  refine (W2_arr m ρ c 5).trans ((final0 (V1 m ρ) c).trans ?_)
  rw [V1_v24 m ρ c, V1_arg0 m ρ c, V1_v12 m ρ c, V1_v25 m ρ c, V1_arg3 m ρ c, Cert.Sage.Ref.layer1]
  exact region0_eq _ _ (val_main_v17 (F := Ideal) (m ((c : Thread nD τ).loc main_arg1))) (m ((c : Thread nD τ).loc main_arg2)) _ _ _ (invCol_at (m ((c : Thread nD τ).loc main_arg1)))
    (fun k q => by rw [val_main_v24_apply, Cert.Sage.Ref.idx24]) (degree_ne_zero (m ((c : Thread nD τ).loc main_arg1)))

/-- The reciprocal-degree column is an input of the first region: it comes out as it went in. -/
theorem W2_v12 (c : Dev nD) : W2 m ρ c (Proc.devRef .tc main_v12) = invCol (m ((c : Thread nD τ).loc main_arg1)) :=
  (W2_arr m ρ c 2).trans (((dat0 (V1 m ρ) c).arrAt_in 2 rfl _).trans ((A_eq0 (V1 m ρ) c 2).trans (V1_v12 m ρ c)))

set_option maxHeartbeats 8000000 in
/-- The source nodes, which the first region does not touch. -/
theorem W2_v1 (c : Dev nD) : W2 m ρ c (Proc.devRef .tc main_v1) = val_main_v1 (F := Ideal) (m ((c : Thread nD τ).loc main_arg1)) :=
  (W2_of_ne m ρ c main_v1 (by decide)).trans (by
    show StableHlo.after hostOps0 (W0 m ρ c) (Proc.devRef .tc main_v1) = _
    after_results_simp <;> rfl)

set_option maxHeartbeats 8000000 in
/-- The destination nodes, which the first region does not touch. -/
theorem W2_v3 (c : Dev nD) : W2 m ρ c (Proc.devRef .tc main_v3) = val_main_v3 (F := Ideal) (m ((c : Thread nD τ).loc main_arg1)) :=
  (W2_of_ne m ρ c main_v3 (by decide)).trans (by
    show StableHlo.after hostOps0 (W0 m ρ c) (Proc.devRef .tc main_v3) = _
    after_results_simp <;> rfl)

set_option maxHeartbeats 8000000 in
theorem W2_arg4 (c : Dev nD) : W2 m ρ c (Proc.devRef .tc main_arg4) = (m ((c : Thread nD τ).loc main_arg4)) :=
  (W2_of_ne m ρ c main_arg4 (by decide)).trans (by
    show StableHlo.after hostOps0 (W0 m ρ c) (Proc.devRef .tc main_arg4) = _
    after_results_simp <;> rfl)

set_option maxHeartbeats 8000000 in
theorem W2_arg5 (c : Dev nD) : W2 m ρ c (Proc.devRef .tc main_arg5) = (m ((c : Thread nD τ).loc main_arg5)) :=
  (W2_of_ne m ρ c main_arg5 (by decide)).trans (by
    show StableHlo.after hostOps0 (W0 m ρ c) (Proc.devRef .tc main_arg5) = _
    after_results_simp <;> rfl)

/-! ## The second region's operands -/

set_option maxHeartbeats 8000000 in
/-- The neighbourhood sums of the first layer's output are the reference's. -/
theorem V3_v38 (c : Dev nD) : V3 m ρ c main_v38 = val_main_v39 (F := Ideal) (m ((c : Thread nD τ).loc main_arg0)) (m ((c : Thread nD τ).loc main_arg1)) (m ((c : Thread nD τ).loc main_arg2)) (m ((c : Thread nD τ).loc main_arg3)) := by
  show StableHlo.after hostOps1 (W2 m ρ c) (Proc.devRef .tc main_v38) = _
  after_results_simp
  rw [W2_v26 m ρ c, W2_v1 m ρ c, W2_v3 m ρ c]
  rfl

set_option maxHeartbeats 8000000 in
theorem V3_v26 (c : Dev nD) : V3 m ρ c main_v26 = val_main_v29 (F := Ideal) (m ((c : Thread nD τ).loc main_arg0)) (m ((c : Thread nD τ).loc main_arg1)) (m ((c : Thread nD τ).loc main_arg2)) (m ((c : Thread nD τ).loc main_arg3)) := by
  show StableHlo.after hostOps1 (W2 m ρ c) (Proc.devRef .tc main_v26) = _
  after_results_simp
  exact W2_v26 m ρ c

set_option maxHeartbeats 8000000 in
theorem V3_v12 (c : Dev nD) : V3 m ρ c main_v12 = invCol (m ((c : Thread nD τ).loc main_arg1)) := by
  show StableHlo.after hostOps1 (W2 m ρ c) (Proc.devRef .tc main_v12) = _
  after_results_simp
  exact W2_v12 m ρ c

set_option maxHeartbeats 8000000 in
/-- The second transposed weights are the reference's. -/
theorem V3_v39 (c : Dev nD) : V3 m ρ c main_v39 = val_main_v50 (F := Ideal) (m ((c : Thread nD τ).loc main_arg4)) := by
  show StableHlo.after hostOps1 (W2 m ρ c) (Proc.devRef .tc main_v39) = _
  after_results_simp
  rw [W2_arg4 m ρ c]
  rfl

set_option maxHeartbeats 8000000 in
theorem V3_arg5 (c : Dev nD) : V3 m ρ c main_arg5 = (m ((c : Thread nD τ).loc main_arg5)) := by
  show StableHlo.after hostOps1 (W2 m ρ c) (Proc.devRef .tc main_arg5) = _
  after_results_simp
  exact W2_arg5 m ρ c

/-! ## The result -/

/-- The second region's output — the program's result — is the reference's result term of the same arguments. -/
theorem W4_v40 (c : Dev nD) :
    W4 m ρ c (Proc.devRef .tc main_v40) = val_main_v54 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) := by
  refine (W4_arr m ρ c 5).trans ((final1 (V3 m ρ) c).trans ?_)
  rw [V3_v38 m ρ c, V3_v26 m ρ c, V3_v12 m ρ c, V3_v39 m ρ c, V3_arg5 m ρ c, Cert.Sage.Ref.layer2]
  have h43 : val_main_v43 (F := Ideal) (m ((c : Thread nD τ).loc main_arg1)) = val_main_v17 (F := Ideal) (m ((c : Thread nD τ).loc main_arg1)) := rfl
  rw [h43]
  exact region1_eq _ _ (val_main_v17 (F := Ideal) (m ((c : Thread nD τ).loc main_arg1))) (m ((c : Thread nD τ).loc main_arg4)) _ _ _ (invCol_at (m ((c : Thread nD τ).loc main_arg1)))
    (fun k q => by rw [val_main_v50_apply, Cert.Sage.Ref.idx50]) (degree_ne_zero (m ((c : Thread nD τ).loc main_arg1)))

/-- The kernel program's run: it terminates without a fault, its result is the reference's result term of its
    arguments, and the arguments end as launched. -/
theorem run_value : θ_run defs (onTc (τ := τ) (main (F := Ideal))) ⟨m, fun _ => 0, ρ⟩ (fun r => ∀ c : Dev nD,
      r.2.mem ((c.tc : Thread nD τ).loc main_v40)
        = val_main_v54 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun r h c => ⟨(h c).1.trans (W4_v40 m ρ c), (h c).2⟩) (run_out m ρ)

end Cert.Sage.Kernel

end
-- ==== Proof.lean ====
/-
  A two-layer graph convolution — per layer: average each node's features with its in-neighbours' (the neighbourhood sum
  plus the node's own row, over the in-degree plus one), apply a linear map and a bias; a rectifier after the first layer
  only — computed two ways over 50000 nodes, 128 features and 800000 edges.

  The kernel program keeps the gathers and accumulating scatters on the host (gathering from a bf16 copy widened back,
  which is the identity at the ideal values), precomputes the column of reciprocals 1 / (degree + 1), and runs each
  layer's dense part as one pipelined region over ten blocks of 5000 nodes: (sums + features) scaled by the reciprocal,
  times the transposed weights on the matrix unit, plus the bias, rectified in the first layer. The reference divides
  by degree + 1 and uses one whole matrix product per layer.

  On the extended reals both are, at node r and output feature q,
      ∑ k, ((A[r,k] + X[r,k]) / (dg[r] + 1)) · W[q,k] + b[q]:
  the matrix products are plain sums over the contracted coordinate, and x · (1 / d) = x / d because d = dg[r] + 1 is a
  count plus one, never zero — the only law needed, and it needs no entry to be finite. The gathers and scatters are
  the same functions of the same arrays on both sides and are never opened, except to see that the degree is zero plus
  a sum of ones. So the kernel program's result is the reference's result term of the same arguments
  (Proof/KernelValue.lean over Proof/KernelBlocks.lean, Proof/KernelBody.lean, Proof/KernelLaw.lean; the reference's
  layers in Proof/RefValue.lean; the formula in Proof/Spec.lean).

  The three frames are the generated ones (the reference's is its generated run with the result dropped); the
  idealization rewrote no operation, so the preservation claim is trivial.
-/
import proofs.«134690_j82205674045926_2_alg».proof.Defs
import proofs.«134690_j82205674045926_2_alg».proof.Proof.Gen.Kernel
import proofs.«134690_j82205674045926_2_alg».proof.Proof.Gen.Kernel.Skeleton
import proofs.«134690_j82205674045926_2_alg».proof.Proof.Gen.Kernel.Launch
import proofs.«134690_j82205674045926_2_alg».proof.Proof.Gen.Kernel.Points
import proofs.«134690_j82205674045926_2_alg».proof.Proof.Gen.Kernel.Frame
import proofs.«134690_j82205674045926_2_alg».proof.Proof.Gen.KernelIdeal
import proofs.«134690_j82205674045926_2_alg».proof.Proof.Gen.KernelIdeal.Skeleton
import proofs.«134690_j82205674045926_2_alg».proof.Proof.Gen.KernelIdeal.Launch
import proofs.«134690_j82205674045926_2_alg».proof.Proof.Gen.KernelIdeal.Points
import proofs.«134690_j82205674045926_2_alg».proof.Proof.Gen.KernelIdeal.Frame
import proofs.«134690_j82205674045926_2_alg».proof.Proof.Gen.ReferenceIdeal
import proofs.«134690_j82205674045926_2_alg».proof.Proof.Gen.ReferenceIdeal.Run
import proofs.«134690_j82205674045926_2_alg».proof.Proof.Gen.ReferenceIdeal.Read
import proofs.«134690_j82205674045926_2_alg».proof.Proof.Gen.Pre_finite_inputs
import proofs.«134690_j82205674045926_2_alg».proof.Proof.KernelValue
import Idealize.ShloMosaic.Adequacy
import Idealize.ShloMosaic.Init

noncomputable section

namespace Cert.Proof

open Idealize.ShloMosaic Idealize.SL.Sem

/-- The word-level kernel program runs and leaves its arguments as launched. -/
theorem frame_kernel : Cert.frame_Kernel := fun m ρ _ => Cert.Kernel.Gen.frame m ρ

/-- So does the kernel program read at the ideal values. -/
theorem frame_kernelIdeal : Cert.frame_KernelIdeal := fun m ρ _ => Cert.KernelIdeal.Gen.frame m ρ

/-- The reference runs and leaves its arguments as launched: its run, with the result forgotten. -/
theorem frame_referenceIdeal : Cert.frame_ReferenceIdeal := fun m ρ _ =>
  (θ_run Cert.ReferenceIdeal.defs _ _).mono (fun _ h c => (h c).2) (Cert.ReferenceIdeal.Value.run (F := Ideal) m ρ)

/-- The idealization rewrote no operation. -/
theorem preserves : Cert.preserves_Kernel_KernelIdeal := trivial

/-- From memories agreeing on the arguments both programs run, and both results are the reference's result term of
    those arguments: the kernel's by the value of its two regions, the reference's by its run. -/
theorem algebraic : Cert.algebraic_KernelIdeal_ReferenceIdeal := by
  intro m ρ m' ρ' _ hagree
  refine ⟨_, Cert.Sage.Kernel.run_value m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v54_eq, (hagree c).1, (hagree c).2.1, (hagree c).2.2.1, (hagree c).2.2.2.1,
    (hagree c).2.2.2.2.1, (hagree c).2.2.2.2.2]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
